-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2048x8192 : Shape := ⟨2, ![2048, 8192]⟩
abbrev S2048 : Shape := ⟨1, ![2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4096x8192 .f32) (main_arg1 : FVec F S2048x8192 .f32) (main_arg2 : FVec F S2048 .f32) (main_arg3 : FVec F S2048x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4096x8192 : Shape := ⟨2, ![4096, 8192]⟩
abbrev S2048x8192 : Shape := ⟨2, ![2048, 8192]⟩
abbrev S2048 : Shape := ⟨1, ![2048]⟩
abbrev S512x2048 : Shape := ⟨2, ![512, 2048]⟩
abbrev S1x2048 : Shape := ⟨2, ![1, 2048]⟩
abbrev S4096x2048 : Shape := ⟨2, ![4096, 2048]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S2048, .f32⟩
  | .hbm, ⟨3, _⟩ => ⟨S2048x8192, .f32⟩
  | .hbm, ⟨4, _⟩ => ⟨S2048x8192, .bf16⟩
  | .hbm, ⟨5, _⟩ => ⟨S1x2048, .f32⟩
  | .hbm, ⟨6, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1024x256, .f32⟩
  | .local _ .vmem, ⟨7, _⟩ => ⟨S1024x256, .f32⟩
  | .local _ .vmem, ⟨8, _⟩ => ⟨S2048x256, .bf16⟩
  | .local _ .vmem, ⟨9, _⟩ => ⟨S2048x256, .bf16⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x8192.size a
  hwx0_0 : ∀ i : grid0.Coords, EltTy.bits .f32 = 32 ∨ (Rect.block (s := S2048x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x8192.size a
  hwx0_1 : ∀ i : grid0.Coords, EltTy.bits .f32 = 32 ∨ (Rect.block (s := S2048x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x8192.size a
  hwx0_2 : ∀ i : grid0.Coords, EltTy.bits .bf16 = 32 ∨ (Rect.block (s := S2048x8192) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x8192.size a
  hwx1_0 : ∀ i : grid1.Coords, EltTy.bits .f32 = 32 ∨ (Rect.block (s := S4096x8192) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x8192.size a
  hwx1_1 : ∀ i : grid1.Coords, EltTy.bits .bf16 = 32 ∨ (Rect.block (s := S2048x8192) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x2048.size a
  hwx1_3 : ∀ i : grid1.Coords, EltTy.bits .f32 = 32 ∨ (Rect.block (s := S4096x2048) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2048x8192 : Shape := ⟨2, ![2048, 8192]⟩
abbrev S2048 : Shape := ⟨1, ![2048]⟩
abbrev S_ : Shape := ⟨0, ![]⟩
abbrev S4096x2048 : Shape := ⟨2, ![4096, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S2048, .f32⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .i1⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call1_cst : Ref sig .tc := ⟨.hbm, 23, rfl⟩
abbrev main_call1_v0 : Ref sig .tc := ⟨.hbm, 24, rfl⟩
abbrev main_v6 : Ref sig .tc := ⟨.hbm, 25, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x8192_S2048x8192_S4096x2048_1_1_0_0_n_n_wf : DotDims.WF S4096x8192 S2048x8192 S4096x2048 [1] [1] [0] [0] [] []

variable [Facts₀]

def dot_S4096x8192_S2048x8192_S4096x2048_1_1_0_0_n_n : DotDims S4096x8192 S2048x8192 S4096x2048 where
  lhsContracting := [1]
  rhsContracting := [1]
  lhsNonContracting := [0]
  rhsNonContracting := [0]
  lhsBatch := []
  rhsBatch := []
  wf := dot_S4096x8192_S2048x8192_S4096x2048_1_1_0_0_n_n_wf

class Facts : Prop extends Facts₀ where

variable [Facts]
-- ==== Proof.Word.WeightRegion.lean ====
/-
  The first kernel region (the weight prepass) of the word-level program, at an arbitrary entry valuation `V`: the
  same grid, windows and body as in the idealized program, read at any float instance. A grid of 4 x 4 points,
  each reading a [512, 2048] block of the raw weights and of the mask and writing the block of the effective
  weight; nothing is carried from one point to the next.
-/
import proofs.«161453_j88244398064125_2_alg».proof.Proof.Gen.Kernel.Launch
import proofs.«161453_j88244398064125_2_alg».proof.Proof.Gen.Kernel.Skeleton
import proofs.«161453_j88244398064125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, cut out of the window's array as the region finds it. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body starts, at every point. -/
theorem heldA_0 {c : Dev nD} (dat : Dat τ (Elt F) Unit ℕ (UR sig nD τ) ℕ cfg0 c) (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)

theorem heldA_1 {c : Dev nD} (dat : Dat τ (Elt F) Unit ℕ (UR sig nD τ) ℕ cfg0 c) (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)

/-- The one rectangle the body reads and writes: the whole [512, 2048] block. -/
abbrev rA : Rect S512x2048 := Rect.unit (s := S512x2048) ![0, 0] S512x2048.size inb_S512x2048_S512x2048_0_0

/-- What the body leaves in the output window's staging buffer, from the two input blocks: its single store. -/
def weffBlock (x0 x1 : Vec F S512x2048 .f32) : Vec F S512x2048 .bf16 :=
  View.canon [⟨rA, k0_pay1 (View.ld x0 rA) (View.ld x1 rA)⟩]

/-- The single store covers the whole buffer. -/
theorem coverA (p0 : Vec F S512x2048 .bf16) (y : S512x2048.Idx) :
    ∃ pc ∈ ([⟨rA, p0⟩] : List (View.Piece (Elt F) S512x2048 .bf16)), y ∈ pc.1.set :=
  View.cover_of_tiled [⟨rA, p0⟩] S512x2048.size (by rfl) y

set_option maxHeartbeats 1000000 in
/-- The body on whole staging buffers: the two inputs are read and handed back as they were, the output ends at
    `weffBlock` of them whatever it held. -/
theorem runA (c : Dev nD) (E : Set ℕ) (i : grid0.Coords) (arg2 : Memref sig .tc .vmem S512x2048 .f32) (harg2 : arg2.IsWhole)
    (arg3 : Memref sig .tc .vmem S512x2048 .f32) (harg3 : arg3.IsWhole) (arg4 : Memref sig .tc .vmem S512x2048 .bf16) (harg4 : arg4.IsWhole)
    (x0 x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (weffBlock x0 x1)) -∗ K ⟨⟩))
      ⊢ wp frame (wpE (defs₀ (F := F)) Variants.none c none) E (cc0__weff_kernel i arg2 harg2 arg3 harg3 arg4 harg4) K := by
  simp only [cc0__weff_kernel_eq_skeleton]; unfold cc0__weff_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The proof data of this region on core `c`: arrays as found, inputs left at their blocks, the output at
    `weffBlock` of the point's input blocks; the invariant is the scoped rest and the generator register. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => weffBlock (blockA V c 0 t) (blockA V c 1 t)
  Φ _ := Pipeline.ΦA spec0 c
  q _ := fullShare
  owed _ := 0

theorem datA_A (c : Dev nD) (w : Fin cfg0.W) : (datA V c).A w = V c (Pipeline.arrRef spec0 w) := by
  dsimp only [datA]

theorem datA_after0 (c : Dev nD) (t : Fin cfg0.N) : (datA V c).after 0 t = blockA V c 0 t := by dsimp only [datA]
theorem datA_after1 (c : Dev nD) (t : Fin cfg0.N) : (datA V c).after 1 t = blockA V c 1 t := by dsimp only [datA]
theorem datA_after2 (c : Dev nD) (t : Fin cfg0.N) : (datA V c).after 2 t = weffBlock (blockA V c 0 t) (blockA V c 1 t) := by dsimp only [datA]

theorem datA_before0 (c : Dev nD) (t : Fin cfg0.N) (d) : (datA V c).before 0 t d = blockA V c 0 t :=
  heldA_0 V (datA V c) (datA_A V c 0) (datA_after0 V c) t d
theorem datA_before1 (c : Dev nD) (t : Fin cfg0.N) (d) : (datA V c).before 1 t d = blockA V c 1 t :=
  heldA_1 V (datA V c) (datA_A V c 1) (datA_after1 V c) t d

/-- What the body is called with at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t))

theorem bodyA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1]
  rw [show (datA V c).Φ t.succ = (datA V c).Φ t.castSucc from rfl,
    show (datA V c).owesAt () t.succ = (datA V c).owesAt () t.castSucc from rfl,
    datA_after0, datA_after1, datA_after2]
  iintro ⟨HΦ, Ho, ⟨%d0, H0⟩, ⟨%d1, H1⟩, ⟨%d2, H2⟩⟩
  iapply (runA c Set.univ _ _ _ _ _ _ _ (blockA V c 0 t) (blockA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligationA (c : Dev nD) : BodyObligation (datA (F := F) V c) (defs₀ (F := F)) Variants.none () Set.univ := fun t => by
  rw [bigSep_W0, bigSep_W0]
  exact bodyA V c t

end Cert.Kernel.Hand

end
-- ==== Proof.Word.ProductRuns.lean ====
/-
  The second kernel region (the blocked matrix product with bias and rectifier) of the word-level program, at an
  arbitrary entry valuation `V`: a grid of 4 x 32 points (i, k); an accumulator kept in scratch memory from one
  point to the next, reset at k = 0, and at k = 31 the output block i stored from it. This module holds what the
  three control cases of the body share, and the body's run in each case.
-/
import proofs.«161453_j88244398064125_2_alg».proof.Proof.Gen.Kernel.Launch
import proofs.«161453_j88244398064125_2_alg».proof.Proof.Gen.Kernel.Skeleton
import proofs.«161453_j88244398064125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, cut out of the window's array as the region finds it. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block when the body starts, at every point, whether the
    block was fetched there or is still the one fetched earlier (the bias row is fetched once). -/
theorem heldB_0 {c : Dev nD} (dat : Dat τ (Elt F) Unit ℕ (UR sig nD τ) ℕ cfg1 c) (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
theorem heldB_1 {c : Dev nD} (dat : Dat τ (Elt F) Unit ℕ (UR sig nD τ) ℕ cfg1 c) (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)
theorem heldB_2 {c : Dev nD} (dat : Dat τ (Elt F) Unit ℕ (UR sig nD τ) ℕ cfg1 c) (hA : dat.A 2 = V c (Pipeline.arrRef spec1 2))
    (hafter : ∀ t, dat.after 2 t = blockB V c 2 t) (t : Fin cfg1.N) (d) : dat.before 2 t d = blockB V c 2 t :=
  (dat.before_in_eq_fetched 2 rfl (fun _ => rfl) (fun _ _ _ => rfl) (fun t => by rw [hafter]; unfold Dat.blockOf blockB; rw [hA]; try rfl) t d).trans
    (by unfold Dat.fetched Dat.blockOf blockB; rw [hA]; try rfl)
end

/-! ## The two conditions of the body, decided over the grid -/

/-- "This is the first step of the contraction" (k = 0), as the body computes it. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 32 = 0 :=
  (by decide +kernel : ∀ t : Fin grid1.N, isFirst (grid1.coords t) ↔ t.val % 32 = 0)

/-- "This is the last step of the contraction" (k = 31). -/
abbrev isLast (i : grid1.Coords) : Prop := k1_cond2 i = 1#1
theorem isLast_iff : ∀ t : Fin cfg1.N, isLast (grid1.coords t) ↔ t.val % 32 = 31 :=
  (by decide +kernel : ∀ t : Fin grid1.N, isLast (grid1.coords t) ↔ t.val % 32 = 31)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last step the output window is idle and its block is not written back. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-! ## The memrefs the body is called with -/

abbrev outView : View sig .tc .vmem S1024x2048 .f32 := (Memref.whole cc1_stg3_0 : Memref sig .tc .vmem S1024x2048 .f32).view
abbrev mB_0 (t : Fin cfg1.N) : Memref sig .tc .vmem S1024x256 .f32 := win1_0.stage (cfg1.slots t 0)
abbrev hB_0 (t : Fin cfg1.N) : (mB_0 t).IsWhole := hstage1_0 ((cfg1.slots t 0).cast nbuf1_0)
abbrev mB_1 (t : Fin cfg1.N) : Memref sig .tc .vmem S2048x256 .bf16 := win1_1.stage (cfg1.slots t 1)
abbrev hB_1 (t : Fin cfg1.N) : (mB_1 t).IsWhole := hstage1_1 ((cfg1.slots t 1).cast nbuf1_1)
abbrev mB_2 (t : Fin cfg1.N) : Memref sig .tc .vmem S1x2048 .f32 := win1_2.stage (cfg1.slots t 2)
abbrev hB_2 (t : Fin cfg1.N) : (mB_2 t).IsWhole := hstage1_2 ((cfg1.slots t 2).cast nbuf1_2)
abbrev mB_3 (t : Fin cfg1.N) : Memref sig .tc .vmem S1024x2048 .f32 := win1_3.stage (cfg1.slots t 3)
abbrev hB_3 (t : Fin cfg1.N) : (mB_3 t).IsWhole := hstage1_3 ((cfg1.slots t 3).cast nbuf1_3)
/-- The accumulator: a whole scoped buffer of the kernel's own. -/
abbrev accM : Memref sig .tc .vmem S1024x2048 .f32 := Memref.whole cc1_scratch0
abbrev accView : View sig .tc .vmem S1024x2048 .f32 := accM.view

/-- The region's plain invariant (the scoped buffers no window stages, the generator register) with the accumulator
    split out as a memref owned at some contents; the other six scoped buffers are the first region's staging buffers. -/
theorem plainInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-! ## The body's run in each control case

In each case the run is a pair: the pieces the stores leave in the output buffer and in the accumulator, with the
proof that the body runs to a continuation holding them. -/

set_option maxHeartbeats 1000000 in
/-- First step (k = 0, not the last): the accumulator is reset and the block product added; the output buffer is
    handed back untouched. -/
noncomputable def runFirst (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : isFirst i) (hc1 : ¬isLast i)
    (x0 : Vec F S1024x256 .f32) (x1 : Vec F S2048x256 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨[], ?_, fun xi3 E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A middle step (0 < k < 31): the block product is added to what the step before left; the output buffer is
    handed back untouched. -/
noncomputable def runMid (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬isFirst i) (hc1 : ¬isLast i)
    (x0 : Vec F S1024x256 .f32) (x1 : Vec F S2048x256 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨[], ?_, fun xi3 E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last step (k = 31): the block product is added, and the accumulator plus bias, clamped below at zero,
    is stored into the output buffer, whatever that held. -/
noncomputable def runLast (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬isFirst i) (hc1 : isLast i)
    (x0 : Vec F S1024x256 .f32) (x1 : Vec F S2048x256 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨?_, ?_, fun E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.Word.ProductRegion.lean ====
/-
  The second kernel region of the word-level program, continued: what the accumulator and the output buffer hold
  after every grid point (by recursion on the point), the region's proof data with the accumulator's contents
  carried in the invariant, and the body obligation.
-/
import proofs.«161453_j88244398064125_2_alg».proof.Proof.Word.ProductRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator after a first step at point `t`: the run's pieces read back. -/
def accFirst (c : Dev nD) (t : Fin cfg1.N) (h0 : t.val % 32 = 0) (h1 : ¬t.val % 32 = 31) : Vec F S1024x2048 .f32 :=
  accView.read (Elt F) (accView.writes (Elt F) accView.junk (runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.1)

theorem accFirst_cover (c : Dev nD) (t : Fin cfg1.N) (h0 : t.val % 32 = 0) (h1 : ¬t.val % 32 = 31) (y : S1024x2048.Idx) :
    ∃ pc ∈ (runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.1, y ∈ pc.1.set :=
  View.cover_of_tiledL _ S1024x2048.size (by sl_kernel_rfl) y

/-- The accumulator after a middle step at point `t`, from what the step before left (`xs`). -/
def accMid (c : Dev nD) (t : Fin cfg1.N) (h0 : ¬t.val % 32 = 0) (h1 : ¬t.val % 32 = 31) (xs : Vec F S1024x2048 .f32) : Vec F S1024x2048 .f32 :=
  accView.read (Elt F) (accView.writes (Elt F) accView.junk (runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) xs).2.1)

theorem accMid_cover (c : Dev nD) (t : Fin cfg1.N) (h0 : ¬t.val % 32 = 0) (h1 : ¬t.val % 32 = 31) (xs : Vec F S1024x2048 .f32) (y : S1024x2048.Idx) :
    ∃ pc ∈ (runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) xs).2.1, y ∈ pc.1.set :=
  View.cover_of_tiledL _ S1024x2048.size (by sl_kernel_rfl) y

/-- The accumulator after a last step. -/
def accLast (c : Dev nD) (t : Fin cfg1.N) (h0 : ¬t.val % 32 = 0) (h1 : t.val % 32 = 31) (xs : Vec F S1024x2048 .f32) : Vec F S1024x2048 .f32 :=
  accView.read (Elt F) (accView.writes (Elt F) accView.junk (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).2.1)

theorem accLast_cover (c : Dev nD) (t : Fin cfg1.N) (h0 : ¬t.val % 32 = 0) (h1 : t.val % 32 = 31) (xs : Vec F S1024x2048 .f32) (y : S1024x2048.Idx) :
    ∃ pc ∈ (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).2.1, y ∈ pc.1.set :=
  View.cover_of_tiledL _ S1024x2048.size (by sl_kernel_rfl) y

/-- The output buffer after a last step. -/
def outLast (c : Dev nD) (t : Fin cfg1.N) (h0 : ¬t.val % 32 = 0) (h1 : t.val % 32 = 31) (xs : Vec F S1024x2048 .f32) : Vec F S1024x2048 .f32 :=
  outView.read (Elt F) (outView.writes (Elt F) outView.junk (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).1)

theorem outLast_cover (c : Dev nD) (t : Fin cfg1.N) (h0 : ¬t.val % 32 = 0) (h1 : t.val % 32 = 31) (xs : Vec F S1024x2048 .f32) (y : S1024x2048.Idx) :
    ∃ pc ∈ (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).1, y ∈ pc.1.set :=
  View.cover_of_tiledL _ S1024x2048.size (by sl_kernel_rfl) y

/-- A placeholder for the output buffer at the points where the window is idle (nothing consults it). -/
def outIdle : Vec F S1024x2048 .f32 := outView.read (Elt F) outView.junk

/-! ## Point by point -/

/-- What the output buffer and the accumulator hold after the body at position `n`. -/
def leftAt (c : Dev nD) : (n : ℕ) → n < cfg1.N → Vec F S1024x2048 .f32 × Vec F S1024x2048 .f32
  | 0, hn => (outIdle, accFirst V c ⟨0, hn⟩ (Nat.zero_mod _) (show ¬ (0 : ℕ) % 32 = 31 by decide))
  | n + 1, hn =>
    if h0 : (n + 1) % 32 = 0 then
      if h1 : (n + 1) % 32 = 31 then False.elim (by omega)
      else (outIdle, accFirst V c ⟨n + 1, hn⟩ h0 h1)
    else
      if h1 : (n + 1) % 32 = 31 then
        (outLast V c ⟨n + 1, hn⟩ h0 h1 (leftAt c n (Nat.lt_of_succ_lt hn)).2, accLast V c ⟨n + 1, hn⟩ h0 h1 (leftAt c n (Nat.lt_of_succ_lt hn)).2)
      else
        (outIdle, accMid V c ⟨n + 1, hn⟩ h0 h1 (leftAt c n (Nat.lt_of_succ_lt hn)).2)

theorem leftAt_first (c : Dev nD) (t : Fin cfg1.N) (h0 : t.val % 32 = 0) (h1 : ¬t.val % 32 = 31) :
    leftAt V c t.val t.isLt = (outIdle, accFirst V c t h0 h1) := by
  obtain ⟨n, hn⟩ := t
  cases n with
  | zero => exact rfl
  | succ n => exact (dif_pos h0).trans ((dif_neg h1).trans rfl)

theorem leftAt_mid (c : Dev nD) (t : Fin cfg1.N) (h0 : ¬t.val % 32 = 0) (h1 : ¬t.val % 32 = 31) :
    leftAt V c t.val t.isLt = (outIdle, accMid V c t h0 h1 (leftAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem leftAt_last (c : Dev nD) (t : Fin cfg1.N) (h0 : ¬t.val % 32 = 0) (h1 : t.val % 32 = 31) :
    leftAt V c t.val t.isLt = (outLast V c t h0 h1 (leftAt V c (t.val - 1) (Nat.lt_of_le_of_lt (Nat.sub_le _ _) t.isLt)).2, accLast V c t h0 h1 (leftAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the plain one (the accumulator at anything);
    afterwards the accumulator at what the point before left, the other scoped buffers at anything, the generator
    register at some state. -/
def accInv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c n hn).2)) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c n hn).2)) ∗ (∃ r, prngReg c r)) := rfl

theorem accInv_pos (c : Dev nD) (n : ℕ) (h : n ≤ cfg1.N) (hz : n ≠ 0) :
    accInv V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c (n - 1) (by omega)).2)) ∗ (∃ r, prngReg c r)) := by
  cases n with
  | zero => exact absurd rfl hz
  | succ n => rfl

/-! ## The proof data -/

def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => blockB V c 2 t
    | ⟨3, _⟩ => (leftAt V c t.val t.isLt).1
  Φ t := accInv V c t.val (Nat.le_of_lt_succ t.isLt)
  q _ := fullShare
  owed _ := 0

theorem datB_A (c : Dev nD) (w : Fin cfg1.W) : (datB V c).A w = V c (Pipeline.arrRef spec1 w) := by
  dsimp only [datB]

theorem datB_inv_castSucc (c : Dev nD) (t : Fin cfg1.N) :
    (datB V c).Φ t.castSucc = accInv V c t.val (Nat.le_of_lt t.isLt) := by
  dsimp only [datB]; simp only [Fin.coe_castSucc]

theorem datB_after0 (c : Dev nD) (t : Fin cfg1.N) : (datB V c).after 0 t = blockB V c 0 t := by dsimp only [datB]
theorem datB_after1 (c : Dev nD) (t : Fin cfg1.N) : (datB V c).after 1 t = blockB V c 1 t := by dsimp only [datB]
theorem datB_after2 (c : Dev nD) (t : Fin cfg1.N) : (datB V c).after 2 t = blockB V c 2 t := by dsimp only [datB]
theorem datB_after3 (c : Dev nD) (t : Fin cfg1.N) : (datB V c).after 3 t = (leftAt V c t.val t.isLt).1 := by dsimp only [datB]

theorem datB_before0 (c : Dev nD) (t : Fin cfg1.N) (d) : (datB V c).before 0 t d = blockB V c 0 t :=
  heldB_0 V (datB V c) (datB_A V c 0) (datB_after0 V c) t d
theorem datB_before1 (c : Dev nD) (t : Fin cfg1.N) (d) : (datB V c).before 1 t d = blockB V c 1 t :=
  heldB_1 V (datB V c) (datB_A V c 1) (datB_after1 V c) t d
theorem datB_before2 (c : Dev nD) (t : Fin cfg1.N) (d) : (datB V c).before 2 t d = blockB V c 2 t :=
  heldB_2 V (datB V c) (datB_A V c 2) (datB_after2 V c) t d

/-! ## The body obligation -/

def preB (c : Dev nD) (t : Fin cfg1.N) : sProp 𝕄 :=
  iprop((datB V c).Φ t.castSucc ∗ (datB V c).owesAt () t.castSucc
    ∗ (∃ d, owns (c : Thread nD τ) (mB_0 t) fullShare ((datB V c).before 0 t d))
    ∗ (∃ d, owns (c : Thread nD τ) (mB_1 t) fullShare ((datB V c).before 1 t d))
    ∗ (∃ d, owns (c : Thread nD τ) (mB_2 t) fullShare ((datB V c).before 2 t d))
    ∗ (∃ d, owns (c : Thread nD τ) (mB_3 t) fullShare ((datB V c).before 3 t d)))

def postB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t
    ∗ (datB V c).leavesExact 3 t)

theorem leaves_in0 (c : Dev nD) (t : Fin cfg1.N) : (datB V c).leavesExact 0 t = owns (c : Thread nD τ) (mB_0 t) fullShare (blockB V c 0 t) := by
  unfold Dat.leavesExact; rw [live_0 t, datB_after0]
theorem leaves_in1 (c : Dev nD) (t : Fin cfg1.N) : (datB V c).leavesExact 1 t = owns (c : Thread nD τ) (mB_1 t) fullShare (blockB V c 1 t) := by
  unfold Dat.leavesExact; rw [live_1 t, datB_after1]
theorem leaves_in2 (c : Dev nD) (t : Fin cfg1.N) : (datB V c).leavesExact 2 t = owns (c : Thread nD τ) (mB_2 t) fullShare (blockB V c 2 t) := by
  unfold Dat.leavesExact; rw [live_2 t, datB_after2]

set_option maxHeartbeats 4800000 in
theorem bodyB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1, datB_before2]
  rw [show (datB V c).owesAt () t.succ = (datB V c).owesAt () t.castSucc from rfl]
  rw [show (datB V c).Φ t.succ = accInv V c (t.val + 1) t.isLt from rfl, accInv_succ]
  rw [leaves_in0, leaves_in1, leaves_in2]
  have hN : t.val < 128 := lt_of_lt_of_eq t.isLt (show cfg1.N = 128 from N_1)
  by_cases h0 : t.val % 32 = 0
  · have h1 : ¬t.val % 32 = 31 := by omega
    rw [Dat.leavesExact_idle (datB V c) 3 t (idle_3 t (fun h => h1 ((isLast_iff t).mp h))) (noFlush_3 t (fun h => h1 ((isLast_iff t).mp h)))]
    rw [leftAt_first V c t h0 h1]
    unfold accFirst; (try dsimp only)
    by_cases hz : t.val = 0
    · rw [datB_inv_castSucc V c t, accInv_zero V c _ _ hz, plainInv_eq]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accFirst_cover V c t h0 h1)
        iexact Hg
      isplitl [Ho]; · iexact Ho
      isplitl [H0]; · iexact H0
      isplitl [H1]; · iexact H1
      isplitl [H2]; · iexact H2
      iexists _; iexact H3
    · rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accFirst_cover V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 32 = 31
    · rw [show (datB V c).leavesExact 3 t = owns (c : Thread nD τ) (mB_3 t) fullShare ((datB V c).after 3 t) from by
        unfold Dat.leavesExact; rw [live_3 t ((isLast_iff t).mpr h1)], datB_after3]
      rw [leftAt_last V c t h0 h1]
      unfold outLast accLast; (try dsimp only)
      rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accLast_cover V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h1 _)
    · rw [Dat.leavesExact_idle (datB V c) 3 t (idle_3 t (fun h => h1 ((isLast_iff t).mp h))) (noFlush_3 t (fun h => h1 ((isLast_iff t).mp h)))]
      rw [leftAt_mid V c t h0 h1]
      unfold accMid; (try dsimp only)
      rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accMid_cover V c t h0 h1 _)
        iexact Hg
      isplitl [Ho]; · iexact Ho
      isplitl [H0]; · iexact H0
      isplitl [H1]; · iexact H1
      isplitl [H2]; · iexact H2
      iexists _; iexact H3

theorem obligationB (c : Dev nD) : BodyObligation (datB (F := F) V c) (defs₀ (F := F)) Variants.none () Set.univ := fun t => by
  rw [bigSep_W1, bigSep_W1]
  exact bodyB V c t

/-- What the launch hands the region is the invariant before the first point. -/
theorem invIn (c : Dev nD) : Pipeline.ΦA spec1 c ⊢ (datB V c).Φ 0 := by
  rw [show (datB V c).Φ 0 = accInv V c 0 (Nat.zero_le _) from rfl, accInv_zero V c 0 _ rfl]
  try exact Idealize.SL.BI.Entails.refl _

/-- After the last point the invariant gives the plain one back: the accumulator's contents are forgotten. -/
theorem invOut (c : Dev nD) : (datB V c).Φ (Fin.last cfg1.N) ⊢ Pipeline.ΦA spec1 c := by
  rw [show (datB V c).Φ (Fin.last cfg1.N) = accInv V c (Fin.last cfg1.N).val (Nat.le_of_lt_succ (Fin.last cfg1.N).isLt) from rfl,
    accInv_pos V c _ _ (by rw [Fin.val_last]; have : cfg1.N = 128 := N_1; omega), plainInv_eq]
  iintro ⟨⟨Ha, Hb, Hc, Hd, He, Hf, HS⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  iexact Hg

/-- The same two facts in the form the region's record asks for: the generator register and the scoped buffers
    no window stages make the invariant before the first point, and the invariant after the last point gives them back. -/
theorem invEnter (c : Dev nD) (P : sProp 𝕄) :
    iprop((∃ r, prngReg c r) ∗ P ∗ Pipeline.scopedRest spec1 c) ⊢ (datB V c).Φ 0 := by
  rw [show (datB V c).Φ 0 = accInv V c 0 (Nat.zero_le _) from rfl, accInv_zero V c 0 _ rfl]
  unfold Pipeline.ΦA
  iintro ⟨Hp, -, Hr⟩
  isplitl [Hr]; · iexact Hr
  iexact Hp

theorem invLeave (c : Dev nD) :
    (datB V c).Φ (Fin.last cfg1.N) ⊢ iprop((∃ r, prngReg c r) ∗ emp ∗ Pipeline.scopedRest spec1 c) := by
  have e : (Pipeline.scopedRest spec1 c : sProp 𝕄) = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) := by
    rw [scopedRest1_eq]; simp only [accM, owns_whole]; try rfl
  rw [show (datB V c).Φ (Fin.last cfg1.N) = accInv V c (Fin.last cfg1.N).val (Nat.le_of_lt_succ (Fin.last cfg1.N).isLt) from rfl,
    accInv_pos V c _ _ (by rw [Fin.val_last]; have : cfg1.N = 128 := N_1; omega), e]
  iintro ⟨⟨Ha, Hb, Hc, Hd, He, Hf, HS⟩, Hg⟩
  isplitl [Hg]; · iexact Hg
  isplitr [Ha Hb Hc Hd He Hf HS]; · iempintro
  isplitl [Ha]; · iexact Ha
  isplitl [Hb]; · iexact Hb
  isplitl [Hc]; · iexact Hc
  isplitl [Hd]; · iexact Hd
  isplitl [He]; · iexact He
  isplitl [Hf]; · iexact Hf
  iexists _; iexact HS

end Cert.Kernel.Hand

end
-- ==== Proof.Word.WholeRun.lean ====
/-
  The word-level program as a run: the weight region, the reshape of the bias on the host, the product region.
  The contents of the TensorCore's unscoped buffers at each boundary are a fold from the launch memory; the run
  ends with every unscoped buffer at the last boundary's contents, so every argument array ends as launched.
-/
import proofs.«161453_j88244398064125_2_alg».proof.Proof.Word.WeightRegion
import proofs.«161453_j88244398064125_2_alg».proof.Proof.Word.ProductRegion
import proofs.«161453_j88244398064125_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the weight region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the weight region: its arrays at what the pipeline leaves, every other buffer as entered. -/
def W1 (c : Dev nD) : Valuation τ sig (Elt F) :=
  Pipeline.withArrays spec0 c (W0 m ρ c) fun w => (datA (V0 m ρ) c).arrAt w cfg0.N
theorem W1_arr (c : Dev nD) (w : Fin cfg0.W) :
    W1 m ρ c (Proc.devRef .tc (Pipeline.arrRef spec0 w)) = (datA (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (datA (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host's reshape of the bias (the product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps1_W) : W2 m ρ c r = W1 m ρ c r :=
  StableHlo.after_of_writes_sub hostOps1 _ hostOps1_writes h

/-- After the product region. -/
def W3 (c : Dev nD) : Valuation τ sig (Elt F) :=
  Pipeline.withArrays spec1 c (W2 m ρ c) fun w => (datB (V2 m ρ) c).arrAt w cfg1.N
theorem W3_arr (c : Dev nD) (w : Fin cfg1.W) :
    W3 m ρ c (Proc.devRef .tc (Pipeline.arrRef spec1 w)) = (datB (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (datB (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((datB (V2 m ρ) c).arrAt_in 0 rfl _).trans (datB_A (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((datA (V0 m ρ) c).arrAt_in 0 rfl _).trans (datA_A (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 1).trans (((datA (V0 m ρ) c).arrAt_in 1 rfl _).trans (datA_A (V0 m ρ) c 1))
    _ = m ((c : Thread nD τ).loc main_arg3) := rfl

/-- The result array ends at what the product region's write-backs leave. -/
theorem W3_main_v2 (c : Dev nD) : W3 m ρ c (Proc.devRef .tc main_v2) = (datB (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => datA (V0 m ρ) c
  | ⟨1, _⟩ => fun c => datB (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligationB (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact invEnter (V2 m ρ) c _
  hout c := by
    rw [Pipeline.ownSems0_none]
    exact invLeave (V2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with every unscoped buffer of the TensorCore at the last boundary's contents. -/
theorem wholeRun : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (wholeRun m ρ)

end Cert.Kernel.Hand

end
-- ==== Proof.WeightRegion.lean ====
/-
  The first kernel region (the weight prepass) at an arbitrary entry valuation `V` of the TensorCore's
  buffers: a grid of 4 x 4 points, each reading a [512, 2048] block of the raw weights and of the mask and
  writing the block of the effective weight. The block written at a point is one pointwise function of
  the two blocks read there; nothing is carried from one point to the next.
-/
import proofs.«161453_j88244398064125_2_alg».proof.Proof.Gen.KernelIdeal.Launch
import proofs.«161453_j88244398064125_2_alg».proof.Proof.Gen.KernelIdeal.Skeleton
import proofs.«161453_j88244398064125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, cut out of the window's array as the region finds it. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body starts, at every point. -/
theorem heldA_0 {c : Dev nD} (dat : Dat τ (Elt F) Unit ℕ (UR sig nD τ) ℕ cfg0 c) (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)

theorem heldA_1 {c : Dev nD} (dat : Dat τ (Elt F) Unit ℕ (UR sig nD τ) ℕ cfg0 c) (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)

/-- The one rectangle the body reads and writes: the whole [512, 2048] block. -/
abbrev rA : Rect S512x2048 := Rect.unit (s := S512x2048) ![0, 0] S512x2048.size inb_S512x2048_S512x2048_0_0

/-- What the body leaves in the output window's staging buffer, from the two input blocks: its single store. -/
def weffBlock (x0 x1 : Vec F S512x2048 .f32) : Vec F S512x2048 .bf16 :=
  View.canon [⟨rA, k0_pay1 (View.ld x0 rA) (View.ld x1 rA)⟩]

/-- The single store covers the whole buffer. -/
theorem coverA (p0 : Vec F S512x2048 .bf16) (y : S512x2048.Idx) :
    ∃ pc ∈ ([⟨rA, p0⟩] : List (View.Piece (Elt F) S512x2048 .bf16)), y ∈ pc.1.set :=
  View.cover_of_tiled [⟨rA, p0⟩] S512x2048.size (by rfl) y

set_option maxHeartbeats 1000000 in
/-- The body on whole staging buffers: the two inputs are read and handed back as they were, the output ends at
    `weffBlock` of them whatever it held. -/
theorem runA (c : Dev nD) (E : Set ℕ) (i : grid0.Coords) (arg2 : Memref sig .tc .vmem S512x2048 .f32) (harg2 : arg2.IsWhole)
    (arg3 : Memref sig .tc .vmem S512x2048 .f32) (harg3 : arg3.IsWhole) (arg4 : Memref sig .tc .vmem S512x2048 .bf16) (harg4 : arg4.IsWhole)
    (x0 x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (weffBlock x0 x1)) -∗ K ⟨⟩))
      ⊢ wp frame (wpE (defs₀ (F := F)) Variants.none c none) E (cc0__weff_kernel i arg2 harg2 arg3 harg3 arg4 harg4) K := by
  simp only [cc0__weff_kernel_eq_skeleton]; unfold cc0__weff_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The proof data of this region on core `c`: arrays as found, inputs left at their blocks, the output at
    `weffBlock` of the point's input blocks; the invariant is the scoped rest and the generator register. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => weffBlock (blockA V c 0 t) (blockA V c 1 t)
  Φ _ := Pipeline.ΦA spec0 c
  q _ := fullShare
  owed _ := 0

theorem datA_A (c : Dev nD) (w : Fin cfg0.W) : (datA V c).A w = V c (Pipeline.arrRef spec0 w) := by
  dsimp only [datA]

theorem datA_after0 (c : Dev nD) (t : Fin cfg0.N) : (datA V c).after 0 t = blockA V c 0 t := by dsimp only [datA]
theorem datA_after1 (c : Dev nD) (t : Fin cfg0.N) : (datA V c).after 1 t = blockA V c 1 t := by dsimp only [datA]
theorem datA_after2 (c : Dev nD) (t : Fin cfg0.N) : (datA V c).after 2 t = weffBlock (blockA V c 0 t) (blockA V c 1 t) := by dsimp only [datA]

theorem datA_before0 (c : Dev nD) (t : Fin cfg0.N) (d) : (datA V c).before 0 t d = blockA V c 0 t :=
  heldA_0 V (datA V c) (datA_A V c 0) (datA_after0 V c) t d
theorem datA_before1 (c : Dev nD) (t : Fin cfg0.N) (d) : (datA V c).before 1 t d = blockA V c 1 t :=
  heldA_1 V (datA V c) (datA_A V c 1) (datA_after1 V c) t d

/-- What the body is called with at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t))

theorem bodyA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1]
  rw [show (datA V c).Φ t.succ = (datA V c).Φ t.castSucc from rfl,
    show (datA V c).owesAt () t.succ = (datA V c).owesAt () t.castSucc from rfl,
    datA_after0, datA_after1, datA_after2]
  iintro ⟨HΦ, Ho, ⟨%d0, H0⟩, ⟨%d1, H1⟩, ⟨%d2, H2⟩⟩
  iapply (runA c Set.univ _ _ _ _ _ _ _ (blockA V c 0 t) (blockA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligationA (c : Dev nD) : BodyObligation (datA (F := F) V c) (defs₀ (F := F)) Variants.none () Set.univ := fun t => by
  rw [bigSep_W0, bigSep_W0]
  exact bodyA V c t

end Cert.KernelIdeal.Hand

end
-- ==== Proof.ProductRuns.lean ====
/-
  The second kernel region (the blocked matrix product with bias and rectifier) at an arbitrary entry valuation
  `V`: a grid of 4 x 32 points (i, k). Point (i, k) reads the [1024, 256] block (i, k) of the activations, the
  [2048, 256] block (·, k) of the effective weight and the bias row, adds the block product into a [1024, 2048]
  accumulator kept in scratch memory from one point to the next (reset at k = 0), and at k = 31 stores the
  accumulator plus bias, clamped below at zero, into the output block i. This module holds what the three
  control cases of the body share, and the body's run in each case.
-/
import proofs.«161453_j88244398064125_2_alg».proof.Proof.Gen.KernelIdeal.Launch
import proofs.«161453_j88244398064125_2_alg».proof.Proof.Gen.KernelIdeal.Skeleton
import proofs.«161453_j88244398064125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, cut out of the window's array as the region finds it. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block when the body starts, at every point, whether the
    block was fetched there or is still the one fetched earlier (the bias row is fetched once). -/
theorem heldB_0 {c : Dev nD} (dat : Dat τ (Elt F) Unit ℕ (UR sig nD τ) ℕ cfg1 c) (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
theorem heldB_1 {c : Dev nD} (dat : Dat τ (Elt F) Unit ℕ (UR sig nD τ) ℕ cfg1 c) (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)
theorem heldB_2 {c : Dev nD} (dat : Dat τ (Elt F) Unit ℕ (UR sig nD τ) ℕ cfg1 c) (hA : dat.A 2 = V c (Pipeline.arrRef spec1 2))
    (hafter : ∀ t, dat.after 2 t = blockB V c 2 t) (t : Fin cfg1.N) (d) : dat.before 2 t d = blockB V c 2 t :=
  (dat.before_in_eq_fetched 2 rfl (fun _ => rfl) (fun _ _ _ => rfl) (fun t => by rw [hafter]; unfold Dat.blockOf blockB; rw [hA]; try rfl) t d).trans
    (by unfold Dat.fetched Dat.blockOf blockB; rw [hA]; try rfl)
end

/-! ## The two conditions of the body, decided over the grid -/

/-- "This is the first step of the contraction" (k = 0), as the body computes it. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 32 = 0 :=
  (by decide +kernel : ∀ t : Fin grid1.N, isFirst (grid1.coords t) ↔ t.val % 32 = 0)

/-- "This is the last step of the contraction" (k = 31). -/
abbrev isLast (i : grid1.Coords) : Prop := k1_cond2 i = 1#1
theorem isLast_iff : ∀ t : Fin cfg1.N, isLast (grid1.coords t) ↔ t.val % 32 = 31 :=
  (by decide +kernel : ∀ t : Fin grid1.N, isLast (grid1.coords t) ↔ t.val % 32 = 31)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last step the output window is idle and its block is not written back. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-! ## The memrefs the body is called with -/

abbrev outView : View sig .tc .vmem S1024x2048 .f32 := (Memref.whole cc1_stg3_0 : Memref sig .tc .vmem S1024x2048 .f32).view
abbrev mB_0 (t : Fin cfg1.N) : Memref sig .tc .vmem S1024x256 .f32 := win1_0.stage (cfg1.slots t 0)
abbrev hB_0 (t : Fin cfg1.N) : (mB_0 t).IsWhole := hstage1_0 ((cfg1.slots t 0).cast nbuf1_0)
abbrev mB_1 (t : Fin cfg1.N) : Memref sig .tc .vmem S2048x256 .bf16 := win1_1.stage (cfg1.slots t 1)
abbrev hB_1 (t : Fin cfg1.N) : (mB_1 t).IsWhole := hstage1_1 ((cfg1.slots t 1).cast nbuf1_1)
abbrev mB_2 (t : Fin cfg1.N) : Memref sig .tc .vmem S1x2048 .f32 := win1_2.stage (cfg1.slots t 2)
abbrev hB_2 (t : Fin cfg1.N) : (mB_2 t).IsWhole := hstage1_2 ((cfg1.slots t 2).cast nbuf1_2)
abbrev mB_3 (t : Fin cfg1.N) : Memref sig .tc .vmem S1024x2048 .f32 := win1_3.stage (cfg1.slots t 3)
abbrev hB_3 (t : Fin cfg1.N) : (mB_3 t).IsWhole := hstage1_3 ((cfg1.slots t 3).cast nbuf1_3)
/-- The accumulator: a whole scoped buffer of the kernel's own. -/
abbrev accM : Memref sig .tc .vmem S1024x2048 .f32 := Memref.whole cc1_scratch0
abbrev accView : View sig .tc .vmem S1024x2048 .f32 := accM.view

/-- The region's plain invariant (the scoped buffers no window stages, the generator register) with the accumulator
    split out as a memref owned at some contents; the other six scoped buffers are the first region's staging buffers. -/
theorem plainInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-! ## The body's run in each control case

In each case the run is a pair: the pieces the stores leave in the output buffer and in the accumulator, with the
proof that the body runs to a continuation holding them. -/

set_option maxHeartbeats 1000000 in
/-- First step (k = 0, not the last): the accumulator is reset and the block product added; the output buffer is
    handed back untouched. -/
noncomputable def runFirst (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : isFirst i) (hc1 : ¬isLast i)
    (x0 : Vec F S1024x256 .f32) (x1 : Vec F S2048x256 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨[], ?_, fun xi3 E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A middle step (0 < k < 31): the block product is added to what the step before left; the output buffer is
    handed back untouched. -/
noncomputable def runMid (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬isFirst i) (hc1 : ¬isLast i)
    (x0 : Vec F S1024x256 .f32) (x1 : Vec F S2048x256 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨[], ?_, fun xi3 E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last step (k = 31): the block product is added, and the accumulator plus bias, clamped below at zero,
    is stored into the output buffer, whatever that held. -/
noncomputable def runLast (c : Dev nD) (i : grid1.Coords) (arg2 : Memref sig .tc .vmem S1024x256 .f32) (harg2 : arg2.IsWhole) (arg3 : Memref sig .tc .vmem S2048x256 .bf16) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬isFirst i) (hc1 : isLast i)
    (x0 : Vec F S1024x256 .f32) (x1 : Vec F S2048x256 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__purkinje_kernel i arg2 harg2 arg3 harg3 arg4 harg4 arg5 harg5 arg6 harg6) K } := by
  refine ⟨?_, ?_, fun E K => ?run⟩
  case run =>
    simp only [cc1__purkinje_kernel_eq_skeleton]; unfold cc1__purkinje_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.ProductRegion.lean ====
/-
  The second kernel region, continued: what the accumulator and the output buffer hold after every grid point
  (by recursion on the point: a first step starts from zero, every other step from what the step before left),
  the region's proof data with the accumulator's contents carried in the invariant, and the body obligation.
-/
import proofs.«161453_j88244398064125_2_alg».proof.Proof.ProductRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator after a first step at point `t`: the run's pieces read back. -/
def accFirst (c : Dev nD) (t : Fin cfg1.N) (h0 : t.val % 32 = 0) (h1 : ¬t.val % 32 = 31) : Vec F S1024x2048 .f32 :=
  accView.read (Elt F) (accView.writes (Elt F) accView.junk (runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.1)

theorem accFirst_cover (c : Dev nD) (t : Fin cfg1.N) (h0 : t.val % 32 = 0) (h1 : ¬t.val % 32 = 31) (y : S1024x2048.Idx) :
    ∃ pc ∈ (runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.1, y ∈ pc.1.set :=
  View.cover_of_tiledL _ S1024x2048.size (by sl_kernel_rfl) y

/-- The accumulator after a middle step at point `t`, from what the step before left (`xs`). -/
def accMid (c : Dev nD) (t : Fin cfg1.N) (h0 : ¬t.val % 32 = 0) (h1 : ¬t.val % 32 = 31) (xs : Vec F S1024x2048 .f32) : Vec F S1024x2048 .f32 :=
  accView.read (Elt F) (accView.writes (Elt F) accView.junk (runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) xs).2.1)

theorem accMid_cover (c : Dev nD) (t : Fin cfg1.N) (h0 : ¬t.val % 32 = 0) (h1 : ¬t.val % 32 = 31) (xs : Vec F S1024x2048 .f32) (y : S1024x2048.Idx) :
    ∃ pc ∈ (runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) xs).2.1, y ∈ pc.1.set :=
  View.cover_of_tiledL _ S1024x2048.size (by sl_kernel_rfl) y

/-- The accumulator after a last step. -/
def accLast (c : Dev nD) (t : Fin cfg1.N) (h0 : ¬t.val % 32 = 0) (h1 : t.val % 32 = 31) (xs : Vec F S1024x2048 .f32) : Vec F S1024x2048 .f32 :=
  accView.read (Elt F) (accView.writes (Elt F) accView.junk (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).2.1)

theorem accLast_cover (c : Dev nD) (t : Fin cfg1.N) (h0 : ¬t.val % 32 = 0) (h1 : t.val % 32 = 31) (xs : Vec F S1024x2048 .f32) (y : S1024x2048.Idx) :
    ∃ pc ∈ (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).2.1, y ∈ pc.1.set :=
  View.cover_of_tiledL _ S1024x2048.size (by sl_kernel_rfl) y

/-- The output buffer after a last step. -/
def outLast (c : Dev nD) (t : Fin cfg1.N) (h0 : ¬t.val % 32 = 0) (h1 : t.val % 32 = 31) (xs : Vec F S1024x2048 .f32) : Vec F S1024x2048 .f32 :=
  outView.read (Elt F) (outView.writes (Elt F) outView.junk (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).1)

theorem outLast_cover (c : Dev nD) (t : Fin cfg1.N) (h0 : ¬t.val % 32 = 0) (h1 : t.val % 32 = 31) (xs : Vec F S1024x2048 .f32) (y : S1024x2048.Idx) :
    ∃ pc ∈ (runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) xs).1, y ∈ pc.1.set :=
  View.cover_of_tiledL _ S1024x2048.size (by sl_kernel_rfl) y

/-- A placeholder for the output buffer at the points where the window is idle (nothing consults it). -/
def outIdle : Vec F S1024x2048 .f32 := outView.read (Elt F) outView.junk

/-! ## Point by point -/

/-- What the output buffer and the accumulator hold after the body at position `n`. -/
def leftAt (c : Dev nD) : (n : ℕ) → n < cfg1.N → Vec F S1024x2048 .f32 × Vec F S1024x2048 .f32
  | 0, hn => (outIdle, accFirst V c ⟨0, hn⟩ (Nat.zero_mod _) (show ¬ (0 : ℕ) % 32 = 31 by decide))
  | n + 1, hn =>
    if h0 : (n + 1) % 32 = 0 then
      if h1 : (n + 1) % 32 = 31 then False.elim (by omega)
      else (outIdle, accFirst V c ⟨n + 1, hn⟩ h0 h1)
    else
      if h1 : (n + 1) % 32 = 31 then
        (outLast V c ⟨n + 1, hn⟩ h0 h1 (leftAt c n (Nat.lt_of_succ_lt hn)).2, accLast V c ⟨n + 1, hn⟩ h0 h1 (leftAt c n (Nat.lt_of_succ_lt hn)).2)
      else
        (outIdle, accMid V c ⟨n + 1, hn⟩ h0 h1 (leftAt c n (Nat.lt_of_succ_lt hn)).2)

theorem leftAt_first (c : Dev nD) (t : Fin cfg1.N) (h0 : t.val % 32 = 0) (h1 : ¬t.val % 32 = 31) :
    leftAt V c t.val t.isLt = (outIdle, accFirst V c t h0 h1) := by
  obtain ⟨n, hn⟩ := t
  cases n with
  | zero => exact rfl
  | succ n => exact (dif_pos h0).trans ((dif_neg h1).trans rfl)

theorem leftAt_mid (c : Dev nD) (t : Fin cfg1.N) (h0 : ¬t.val % 32 = 0) (h1 : ¬t.val % 32 = 31) :
    leftAt V c t.val t.isLt = (outIdle, accMid V c t h0 h1 (leftAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem leftAt_last (c : Dev nD) (t : Fin cfg1.N) (h0 : ¬t.val % 32 = 0) (h1 : t.val % 32 = 31) :
    leftAt V c t.val t.isLt = (outLast V c t h0 h1 (leftAt V c (t.val - 1) (Nat.lt_of_le_of_lt (Nat.sub_le _ _) t.isLt)).2, accLast V c t h0 h1 (leftAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the plain one (the accumulator at anything);
    afterwards the accumulator at what the point before left, the other scoped buffers at anything, the generator
    register at some state. -/
def accInv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c n hn).2)) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c n hn).2)) ∗ (∃ r, prngReg c r)) := rfl

theorem accInv_pos (c : Dev nD) (n : ℕ) (h : n ≤ cfg1.N) (hz : n ≠ 0) :
    accInv V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare ((leftAt V c (n - 1) (by omega)).2)) ∗ (∃ r, prngReg c r)) := by
  cases n with
  | zero => exact absurd rfl hz
  | succ n => rfl

/-! ## The proof data -/

def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => blockB V c 2 t
    | ⟨3, _⟩ => (leftAt V c t.val t.isLt).1
  Φ t := accInv V c t.val (Nat.le_of_lt_succ t.isLt)
  q _ := fullShare
  owed _ := 0

theorem datB_A (c : Dev nD) (w : Fin cfg1.W) : (datB V c).A w = V c (Pipeline.arrRef spec1 w) := by
  dsimp only [datB]

theorem datB_inv_castSucc (c : Dev nD) (t : Fin cfg1.N) :
    (datB V c).Φ t.castSucc = accInv V c t.val (Nat.le_of_lt t.isLt) := by
  dsimp only [datB]; simp only [Fin.coe_castSucc]

theorem datB_after0 (c : Dev nD) (t : Fin cfg1.N) : (datB V c).after 0 t = blockB V c 0 t := by dsimp only [datB]
theorem datB_after1 (c : Dev nD) (t : Fin cfg1.N) : (datB V c).after 1 t = blockB V c 1 t := by dsimp only [datB]
theorem datB_after2 (c : Dev nD) (t : Fin cfg1.N) : (datB V c).after 2 t = blockB V c 2 t := by dsimp only [datB]
theorem datB_after3 (c : Dev nD) (t : Fin cfg1.N) : (datB V c).after 3 t = (leftAt V c t.val t.isLt).1 := by dsimp only [datB]

theorem datB_before0 (c : Dev nD) (t : Fin cfg1.N) (d) : (datB V c).before 0 t d = blockB V c 0 t :=
  heldB_0 V (datB V c) (datB_A V c 0) (datB_after0 V c) t d
theorem datB_before1 (c : Dev nD) (t : Fin cfg1.N) (d) : (datB V c).before 1 t d = blockB V c 1 t :=
  heldB_1 V (datB V c) (datB_A V c 1) (datB_after1 V c) t d
theorem datB_before2 (c : Dev nD) (t : Fin cfg1.N) (d) : (datB V c).before 2 t d = blockB V c 2 t :=
  heldB_2 V (datB V c) (datB_A V c 2) (datB_after2 V c) t d

/-! ## The body obligation -/

def preB (c : Dev nD) (t : Fin cfg1.N) : sProp 𝕄 :=
  iprop((datB V c).Φ t.castSucc ∗ (datB V c).owesAt () t.castSucc
    ∗ (∃ d, owns (c : Thread nD τ) (mB_0 t) fullShare ((datB V c).before 0 t d))
    ∗ (∃ d, owns (c : Thread nD τ) (mB_1 t) fullShare ((datB V c).before 1 t d))
    ∗ (∃ d, owns (c : Thread nD τ) (mB_2 t) fullShare ((datB V c).before 2 t d))
    ∗ (∃ d, owns (c : Thread nD τ) (mB_3 t) fullShare ((datB V c).before 3 t d)))

def postB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t
    ∗ (datB V c).leavesExact 3 t)

theorem leaves_in0 (c : Dev nD) (t : Fin cfg1.N) : (datB V c).leavesExact 0 t = owns (c : Thread nD τ) (mB_0 t) fullShare (blockB V c 0 t) := by
  unfold Dat.leavesExact; rw [live_0 t, datB_after0]
theorem leaves_in1 (c : Dev nD) (t : Fin cfg1.N) : (datB V c).leavesExact 1 t = owns (c : Thread nD τ) (mB_1 t) fullShare (blockB V c 1 t) := by
  unfold Dat.leavesExact; rw [live_1 t, datB_after1]
theorem leaves_in2 (c : Dev nD) (t : Fin cfg1.N) : (datB V c).leavesExact 2 t = owns (c : Thread nD τ) (mB_2 t) fullShare (blockB V c 2 t) := by
  unfold Dat.leavesExact; rw [live_2 t, datB_after2]

set_option maxHeartbeats 4800000 in
theorem bodyB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1, datB_before2]
  rw [show (datB V c).owesAt () t.succ = (datB V c).owesAt () t.castSucc from rfl]
  rw [show (datB V c).Φ t.succ = accInv V c (t.val + 1) t.isLt from rfl, accInv_succ]
  rw [leaves_in0, leaves_in1, leaves_in2]
  have hN : t.val < 128 := lt_of_lt_of_eq t.isLt (show cfg1.N = 128 from N_1)
  by_cases h0 : t.val % 32 = 0
  · have h1 : ¬t.val % 32 = 31 := by omega
    rw [Dat.leavesExact_idle (datB V c) 3 t (idle_3 t (fun h => h1 ((isLast_iff t).mp h))) (noFlush_3 t (fun h => h1 ((isLast_iff t).mp h)))]
    rw [leftAt_first V c t h0 h1]
    unfold accFirst; (try dsimp only)
    by_cases hz : t.val = 0
    · rw [datB_inv_castSucc V c t, accInv_zero V c _ _ hz, plainInv_eq]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accFirst_cover V c t h0 h1)
        iexact Hg
      isplitl [Ho]; · iexact Ho
      isplitl [H0]; · iexact H0
      isplitl [H1]; · iexact H1
      isplitl [H2]; · iexact H2
      iexists _; iexact H3
    · rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runFirst c (grid1.coords t) (mB_0 t) (hB_0 t) (mB_1 t) (hB_1 t) (mB_2 t) (hB_2 t) (mB_3 t) (hB_3 t) accM (Memref.isWhole_whole _) ((isFirst_iff t).mpr h0) (fun h => h1 ((isLast_iff t).mp h)) (blockB V c 0 t) (blockB V c 1 t) (blockB V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accFirst_cover V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 32 = 31
    · rw [show (datB V c).leavesExact 3 t = owns (c : Thread nD τ) (mB_3 t) fullShare ((datB V c).after 3 t) from by
        unfold Dat.leavesExact; rw [live_3 t ((isLast_iff t).mpr h1)], datB_after3]
      rw [leftAt_last V c t h0 h1]
      unfold outLast accLast; (try dsimp only)
      rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runLast c (grid1.coords t) (mB_0 t) (hB_0 t) (mB_1 t) (hB_1 t) (mB_2 t) (hB_2 t) (mB_3 t) (hB_3 t) accM (Memref.isWhole_whole _) (fun h => h0 ((isFirst_iff t).mp h)) ((isLast_iff t).mpr h1) (blockB V c 0 t) (blockB V c 1 t) (blockB V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accLast_cover V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t h0 h1 _)
    · rw [Dat.leavesExact_idle (datB V c) 3 t (idle_3 t (fun h => h1 ((isLast_iff t).mp h))) (noFlush_3 t (fun h => h1 ((isLast_iff t).mp h)))]
      rw [leftAt_mid V c t h0 h1]
      unfold accMid; (try dsimp only)
      rw [datB_inv_castSucc V c t, accInv_pos V c _ _ hz]
      iintro ⟨⟨⟨Ha, Hb, Hc, Hd, He, Hf, HS⟩, Hg⟩, Ho, ⟨%d0, H0⟩, ⟨%d1, H1⟩, ⟨%d2, H2⟩, ⟨%d3, H3⟩⟩
      iapply ((runMid c (grid1.coords t) (mB_0 t) (hB_0 t) (mB_1 t) (hB_1 t) (mB_2 t) (hB_2 t) (mB_3 t) (hB_3 t) accM (Memref.isWhole_whole _) (fun h => h0 ((isFirst_iff t).mp h)) (fun h => h1 ((isLast_iff t).mp h)) (blockB V c 0 t) (blockB V c 1 t) (blockB V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd He Hf HS Hg]
      · isplitr [Hg]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS
          ipureintro; exact View.read_writes_of_cover _ _ _ _ _ (accMid_cover V c t h0 h1 _)
        iexact Hg
      isplitl [Ho]; · iexact Ho
      isplitl [H0]; · iexact H0
      isplitl [H1]; · iexact H1
      isplitl [H2]; · iexact H2
      iexists _; iexact H3

theorem obligationB (c : Dev nD) : BodyObligation (datB (F := F) V c) (defs₀ (F := F)) Variants.none () Set.univ := fun t => by
  rw [bigSep_W1, bigSep_W1]
  exact bodyB V c t

/-- What the launch hands the region is the invariant before the first point. -/
theorem invIn (c : Dev nD) : Pipeline.ΦA spec1 c ⊢ (datB V c).Φ 0 := by
  rw [show (datB V c).Φ 0 = accInv V c 0 (Nat.zero_le _) from rfl, accInv_zero V c 0 _ rfl]
  try exact Idealize.SL.BI.Entails.refl _

/-- After the last point the invariant gives the plain one back: the accumulator's contents are forgotten. -/
theorem invOut (c : Dev nD) : (datB V c).Φ (Fin.last cfg1.N) ⊢ Pipeline.ΦA spec1 c := by
  rw [show (datB V c).Φ (Fin.last cfg1.N) = accInv V c (Fin.last cfg1.N).val (Nat.le_of_lt_succ (Fin.last cfg1.N).isLt) from rfl,
    accInv_pos V c _ _ (by rw [Fin.val_last]; have : cfg1.N = 128 := N_1; omega), plainInv_eq]
  iintro ⟨⟨Ha, Hb, Hc, Hd, He, Hf, HS⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  iexact Hg

/-- The same two facts in the form the region's record asks for: the generator register and the scoped buffers
    no window stages make the invariant before the first point, and the invariant after the last point gives them back. -/
theorem invEnter (c : Dev nD) (P : sProp 𝕄) :
    iprop((∃ r, prngReg c r) ∗ P ∗ Pipeline.scopedRest spec1 c) ⊢ (datB V c).Φ 0 := by
  rw [show (datB V c).Φ 0 = accInv V c 0 (Nat.zero_le _) from rfl, accInv_zero V c 0 _ rfl]
  unfold Pipeline.ΦA
  iintro ⟨Hp, -, Hr⟩
  isplitl [Hr]; · iexact Hr
  iexact Hp

theorem invLeave (c : Dev nD) :
    (datB V c).Φ (Fin.last cfg1.N) ⊢ iprop((∃ r, prngReg c r) ∗ emp ∗ Pipeline.scopedRest spec1 c) := by
  have e : (Pipeline.scopedRest spec1 c : sProp 𝕄) = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) := by
    rw [scopedRest1_eq]; simp only [accM, owns_whole]; try rfl
  rw [show (datB V c).Φ (Fin.last cfg1.N) = accInv V c (Fin.last cfg1.N).val (Nat.le_of_lt_succ (Fin.last cfg1.N).isLt) from rfl,
    accInv_pos V c _ _ (by rw [Fin.val_last]; have : cfg1.N = 128 := N_1; omega), e]
  iintro ⟨⟨Ha, Hb, Hc, Hd, He, Hf, HS⟩, Hg⟩
  isplitl [Hg]; · iexact Hg
  isplitr [Ha Hb Hc Hd He Hf HS]; · iempintro
  isplitl [Ha]; · iexact Ha
  isplitl [Hb]; · iexact Hb
  isplitl [Hc]; · iexact Hc
  isplitl [Hd]; · iexact Hd
  isplitl [He]; · iexact He
  isplitl [Hf]; · iexact Hf
  iexists _; iexact HS

end Cert.KernelIdeal.Hand

end
-- ==== Proof.WholeRun.lean ====
/-
  The whole program as a run: the weight region, the reshape of the bias on the host, the product region. The
  contents of the TensorCore's unscoped buffers at each boundary are a fold from the launch memory: a region
  replaces its windows' arrays by what its write-backs leave, the host stretch applies its operation. The run
  ends with every unscoped buffer at the last boundary's contents.
-/
import proofs.«161453_j88244398064125_2_alg».proof.Proof.WeightRegion
import proofs.«161453_j88244398064125_2_alg».proof.Proof.ProductRegion
import proofs.«161453_j88244398064125_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the weight region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the weight region: its arrays at what the pipeline leaves, every other buffer as entered. -/
def W1 (c : Dev nD) : Valuation τ sig (Elt F) :=
  Pipeline.withArrays spec0 c (W0 m ρ c) fun w => (datA (V0 m ρ) c).arrAt w cfg0.N
theorem W1_arr (c : Dev nD) (w : Fin cfg0.W) :
    W1 m ρ c (Proc.devRef .tc (Pipeline.arrRef spec0 w)) = (datA (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (datA (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host's reshape of the bias (the product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps1_W) : W2 m ρ c r = W1 m ρ c r :=
  StableHlo.after_of_writes_sub hostOps1 _ hostOps1_writes h

/-- After the product region. -/
def W3 (c : Dev nD) : Valuation τ sig (Elt F) :=
  Pipeline.withArrays spec1 c (W2 m ρ c) fun w => (datB (V2 m ρ) c).arrAt w cfg1.N
theorem W3_arr (c : Dev nD) (w : Fin cfg1.W) :
    W3 m ρ c (Proc.devRef .tc (Pipeline.arrRef spec1 w)) = (datB (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (datB (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((datB (V2 m ρ) c).arrAt_in 0 rfl _).trans (datB_A (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((datA (V0 m ρ) c).arrAt_in 0 rfl _).trans (datA_A (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 1).trans (((datA (V0 m ρ) c).arrAt_in 1 rfl _).trans (datA_A (V0 m ρ) c 1))
    _ = m ((c : Thread nD τ).loc main_arg3) := rfl

/-- The result array ends at what the product region's write-backs leave. -/
theorem W3_main_v2 (c : Dev nD) : W3 m ρ c (Proc.devRef .tc main_v2) = (datB (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => datA (V0 m ρ) c
  | ⟨1, _⟩ => fun c => datB (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligationB (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact invEnter (V2 m ρ) c _
  hout c := by
    rw [Pipeline.ownSems0_none]
    exact invLeave (V2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with every unscoped buffer of the TensorCore at the last boundary's contents. -/
theorem wholeRun : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (wholeRun m ρ)

end Cert.KernelIdeal.Hand

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.Spec.lean ====
/-
  What the program computes, as functions of its four argument arrays, index by index, on the extended reals:
  the effective weight  weight(n, j) = softplus(w(n, j)) * mask(n, j),  and the result
  out(r, n) = max(sum_j g(r, j) * weight(n, j) + b(n), 0).
  The blocked kernel reaches the sum over j in 32 steps of 256 terms, starting from zero; since addition on the
  extended reals is associative and commutative, the steps add up to the whole sum (`steps_eq_sum`).
-/
import Idealize.ShloMosaic.PureOps.Ideal.Laws
import Idealize.ShloMosaic.Lib.ValueIdx
import proofs.«161453_j88244398064125_2_alg».proof.Proof.LibSumBlocks

noncomputable section

namespace Cert.Hand.Spec

open Idealize.ShloMosaic Idealize.ShloMosaic.ValueIdx

/-- The f32 word 0.0, as both programs spell it. -/
abbrev zw : Ideal .f32 := FloatOps.ofBits (F := Ideal) .f32 0x00000000#32

theorem zw_eq : zw = (0 : EReal) := Ideal.ofBits_zero_f32

/-- softplus(x) = max(x, 0) + log(1 + exp(-|x - 0|)), the numerically stable spelling both programs use. -/
def softplus (x : Ideal .f32) : Ideal .f32 :=
  FloatOps.addf (FloatOps.maximumf x zw)
    (FloatOps.log1p (FloatOps.exp (FloatOps.subf zw (FloatOps.absf (FloatOps.subf x zw)))))

/-- A value is never different from itself, so a selection on "x differs from x" takes its second branch. -/
theorem select_ne_self (p : CmpFPredicate) (hp : p = .one ∨ p = .une) (v : Ideal .f32) (a b : Ideal .f32) :
    Scalar.select (FloatOps.cmpf (F := Ideal) p v v) a b = b := by
  rcases hp with rfl | rfl <;> simp [Scalar.select, FloatOps.cmpf, Ideal.cmp]

/-- The effective weight. -/
def weight (w mk : FVec Ideal ⟨2, ![2048, 8192]⟩ .f32) : FVec Ideal ⟨2, ![2048, 8192]⟩ .f32 :=
  fun j => FloatOps.mulf (softplus (w j)) (mk j)

/-- The result. -/
def out (g : FVec Ideal ⟨2, ![4096, 8192]⟩ .f32) (we : FVec Ideal ⟨2, ![2048, 8192]⟩ .f32) (b : FVec Ideal ⟨1, ![2048]⟩ .f32) :
    FVec Ideal ⟨2, ![4096, 2048]⟩ .f32 :=
  fun i => FloatOps.maximumf (FloatOps.addf (∑ j : Fin 8192, g (ix2 (i 0) j) * we (ix2 (i 1) j)) (b (ix1 (i 1)))) zw

/-! ## The sum in 32 steps of 256 -/

/-- The 256 terms of step `k` for row `r` and column `n` (zero from step 32 on). -/
def stepSum (g : FVec Ideal ⟨2, ![4096, 8192]⟩ .f32) (we : FVec Ideal ⟨2, ![2048, 8192]⟩ .f32) (r : Fin 4096) (n : Fin 2048) (k : ℕ) : EReal :=
  if h : k < 32 then ∑ q : Fin 256, g (ix2 r ⟨k * 256 + q.val, by have := q.isLt; omega⟩) * we (ix2 n ⟨k * 256 + q.val, by have := q.isLt; omega⟩)
  else 0

/-- The accumulator after step `k`: zero plus the steps up to `k`, added one at a time. -/
def accum (g : FVec Ideal ⟨2, ![4096, 8192]⟩ .f32) (we : FVec Ideal ⟨2, ![2048, 8192]⟩ .f32) (r : Fin 4096) (n : Fin 2048) : ℕ → EReal
  | 0 => zw + stepSum g we r n 0
  | k + 1 => accum g we r n k + stepSum g we r n (k + 1)

theorem accum_eq_range (g : FVec Ideal ⟨2, ![4096, 8192]⟩ .f32) (we : FVec Ideal ⟨2, ![2048, 8192]⟩ .f32) (r : Fin 4096) (n : Fin 2048) (k : ℕ) :
    accum g we r n k = ∑ kk ∈ Finset.range (k + 1), stepSum g we r n kk := by
  induction k with
  | zero => rw [accum, zw_eq, zero_add, Finset.sum_range_one]
  | succ k ih => rw [accum, ih, Finset.sum_range_succ _ (k + 1)]

/-- After the last step the accumulator holds the whole sum over the 8192 terms. -/
theorem steps_eq_sum (g : FVec Ideal ⟨2, ![4096, 8192]⟩ .f32) (we : FVec Ideal ⟨2, ![2048, 8192]⟩ .f32) (r : Fin 4096) (n : Fin 2048) :
    accum g we r n 31 = ∑ j : Fin 8192, g (ix2 r j) * we (ix2 n j) := by
  rw [accum_eq_range, Finset.sum_range (fun kk => stepSum g we r n kk)]
  refine Eq.symm ((Cert.LibSumBlocks.sum_blocks 32 256 (fun j : Fin (32 * 256) => g (ix2 r j) * we (ix2 n j))).trans ?_)
  refine Finset.sum_congr rfl fun k _ => ?_
  rw [stepSum, dif_pos k.isLt]

end Cert.Hand.Spec

end
-- ==== Proof.WeightValue.lean ====
/-
  What the weight region leaves in its result array, on the extended reals: every block written back is the block
  of one whole-array function, the effective weight softplus(w) * mask of the two argument arrays as the region
  finds them, and the 4 x 4 blocks tile the array; so the array ends holding that function.
-/
import proofs.«161453_j88244398064125_2_alg».proof.Proof.WeightRegion
import proofs.«161453_j88244398064125_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx
variable (V : (c : Dev nD) → (b : Ref sig .tc) → Buf (Elt Ideal) ((c : Thread nD τ).loc b))

theorem zeroOffA : (![0, 0] : Fin 2 → Nat) = fun _ => 0 := funext fun a => by fin_cases a <;> rfl

/-- The body's arithmetic at one element: the comparison of a value with itself selects the softplus branch. -/
theorem weffPay_apply (x0 x1 : Vec Ideal S512x2048 .f32) (j : S512x2048.Idx) :
    k0_pay1 x0 x1 j = FloatOps.mulf (Cert.Hand.Spec.softplus (x0 j)) (x1 j) := by
  show FloatOps.truncf .bf16 bitsLt_bf16_f32 (FloatOps.mulf (Scalar.select (FloatOps.cmpf .one (FloatOps.subf (x0 j) Cert.Hand.Spec.zw) (FloatOps.subf (x0 j) Cert.Hand.Spec.zw)) (FloatOps.addf (x0 j) Cert.Hand.Spec.zw) (Cert.Hand.Spec.softplus (x0 j))) (x1 j)) = _
  rw [Cert.Hand.Spec.select_ne_self .one (.inl rfl)]
  rfl

/-- The three windows move together: block (p, g) of each array at point 4p + g. -/
theorem idxA : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4 :=
  (by decide +kernel : ∀ t : Fin grid0.N, _)

/-- The effective weight of the two argument arrays as the region finds them. -/
def weightOf (c : Dev nD) : S2048x8192.Idx → Elt Ideal .bf16 :=
  Cert.Hand.Spec.weight (V c main_arg1) (V c main_arg3)

/-- What point `t` writes back is block `t` of the effective weight. -/
theorem flushedA_eq (c : Dev nD) (t : Fin cfg0.N) :
    (datA V c).flushed 2 t = ((cfg0.win 2).blk t).view.read (Elt Ideal) (weightOf V c) := by
  show (cfg0.win 2).cut (grid0.coords t) ((datA V c).after 2 t) = _
  rw [datA_after2]
  unfold weffBlock
  rw [View.canon_unit_zero zeroOffA]
  simp only [View.ld_unit_zero (S := S512x2048) zeroOffA]
  obtain ⟨e0, e1, e2, e3, e4, e5⟩ := idxA t
  funext j
  show k0_pay1 (blockA V c 0 t) (blockA V c 1 t) j = weightOf V c (((cfg0.win 2).blk t).view.emb j)
  rw [weffPay_apply]
  show FloatOps.mulf (Cert.Hand.Spec.softplus (V c main_arg1 (((cfg0.win 0).blk t).view.emb j))) (V c main_arg3 (((cfg0.win 1).blk t).view.emb j))
    = FloatOps.mulf (Cert.Hand.Spec.softplus (V c main_arg1 (((cfg0.win 2).blk t).view.emb j))) (V c main_arg3 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  rw [h0, h1]

/-- An index of the array is in point `t`'s block iff each coordinate is in the block's range on its axis. -/
theorem memBlkA (t : Fin cfg0.N) (i : S2048x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Every index of the array lies in the block of the point 4 * (row / 512) + column / 2048. -/
theorem coverA_all (i : S2048x8192.Idx) :
    ∃ t : Fin cfg0.N, (cfg0.win 2).flush t = true ∧ i ∈ ((cfg0.win 2).blk t).view.set := by
  have hi0 : (i 0).val < 2048 := (i 0).isLt
  have hi1 : (i 1).val < 8192 := (i 1).isLt
  have hN : cfg0.N = 16 := N_0
  refine ⟨⟨(i 0).val / 512 * 4 + (i 1).val / 2048, by rw [hN]; omega⟩, flush0_2 _, ?_⟩
  rw [memBlkA]
  obtain ⟨-, -, -, -, e4, e5⟩ := idxA ⟨(i 0).val / 512 * 4 + (i 1).val / 2048, by rw [hN]; omega⟩
  intro a
  match a with
  | ⟨0, _⟩ =>
    show win0_2.index _ (0 : Fin 2) * 512 ≤ (i 0).val ∧ (i 0).val < win0_2.index _ (0 : Fin 2) * 512 + 512
    rw [e4]; dsimp only; omega
  | ⟨1, _⟩ =>
    show win0_2.index _ (1 : Fin 2) * 2048 ≤ (i 1).val ∧ (i 1).val < win0_2.index _ (1 : Fin 2) * 2048 + 2048
    rw [e5]; dsimp only; omega

/-- The weight region's result array ends holding the effective weight. -/
theorem weightFinal (c : Dev nD) : (datA V c).arrAt 2 cfg0.N = weightOf V c :=
  (datA V c).arrAt_eq_of_cover 2 (weightOf V c) (fun t _ => flushedA_eq V c t) (coverA_all)

end Cert.KernelIdeal.Hand

end
-- ==== Proof.ProductPieces.lean ====
/-
  The product region's three control cases, opened: what each case leaves in the accumulator and in the output
  buffer is the body's own arithmetic (its named payloads) of the point's input blocks and of what the accumulator
  held — a first step adds the block product to the zero it has just stored, every other step to what the step
  before left, and the last step's output is the finished accumulator plus bias, clamped at zero.
-/
import proofs.«161453_j88244398064125_2_alg».proof.Proof.ProductRegion
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOff : (![0, 0] : Fin 2 → Nat) = fun _ => 0 := funext fun a => by fin_cases a <;> rfl

theorem accMid_eq (c : Dev nD) (t : Fin cfg1.N) (h0 : ¬t.val % 32 = 0) (h1 : ¬t.val % 32 = 31) (xs : Vec F S1024x2048 .f32) :
    accMid V c t h0 h1 xs = k1_pay2 (blockB V c 0 t) xs (blockB V c 1 t) := by
  unfold accMid
  rw [View.read_writes_eq_canon _ _ _ (accMid_cover V c t h0 h1 xs)]
  unfold runMid
  dsimp only
  sl_unfold_words
  rw [View.canon_unit_zero zeroOff]
  simp only [View.readAt_eq_ld, Memref.IsWhole.read_unread, View.ld_unit_zero (S := S1024x256) zeroOff, View.ld_unit_zero (S := S1024x2048) zeroOff, View.ld_unit_zero (S := S2048x256) zeroOff]
  exact congrArg (fun z => k1_pay2 (blockB V c 0 t) z (blockB V c 1 t)) ((Memref.isWhole_whole _ : accM.IsWhole).read_unread xs)

theorem accFirst_eq (c : Dev nD) (t : Fin cfg1.N) (h0 : t.val % 32 = 0) (h1 : ¬t.val % 32 = 31) :
    accFirst V c t h0 h1 = k1_pay2 (blockB V c 0 t) k1_pay1 (blockB V c 1 t) := by
  unfold accFirst
  rw [View.read_writes_eq_canon _ _ _ (accFirst_cover V c t h0 h1)]
  unfold runFirst
  dsimp only
  sl_unfold_words
  rw [View.canon_cons_unit_zero zeroOff]
  simp only [View.readAt_eq_ld, Memref.IsWhole.read_unread, View.readCov_unit_zero (S := S1024x2048) accM.view zeroOff, View.ld_unit_zero (S := S1024x256) zeroOff, View.ld_unit_zero (S := S1024x2048) zeroOff, View.ld_unit_zero (S := S2048x256) zeroOff]

theorem accLast_eq (c : Dev nD) (t : Fin cfg1.N) (h0 : ¬t.val % 32 = 0) (h1 : t.val % 32 = 31) (xs : Vec F S1024x2048 .f32) :
    accLast V c t h0 h1 xs = k1_pay2 (blockB V c 0 t) xs (blockB V c 1 t) := by
  unfold accLast
  rw [View.read_writes_eq_canon _ _ _ (accLast_cover V c t h0 h1 xs)]
  unfold runLast
  dsimp only
  sl_unfold_words
  rw [View.canon_unit_zero zeroOff]
  simp only [View.readAt_eq_ld, Memref.IsWhole.read_unread, View.ld_unit_zero (S := S1024x256) zeroOff, View.ld_unit_zero (S := S1024x2048) zeroOff, View.ld_unit_zero (S := S2048x256) zeroOff]
  exact congrArg (fun z => k1_pay2 (blockB V c 0 t) z (blockB V c 1 t)) ((Memref.isWhole_whole _ : accM.IsWhole).read_unread xs)

theorem outLast_eq (c : Dev nD) (t : Fin cfg1.N) (h0 : ¬t.val % 32 = 0) (h1 : t.val % 32 = 31) (xs : Vec F S1024x2048 .f32) :
    outLast V c t h0 h1 xs = k1_pay3 (k1_pay2 (blockB V c 0 t) xs (blockB V c 1 t)) (blockB V c 2 t) := by
  unfold outLast
  rw [View.read_writes_eq_canon _ _ _ (outLast_cover V c t h0 h1 xs)]
  unfold runLast
  dsimp only
  sl_unfold_words
  rw [View.canon_unit_zero zeroOff]
  simp only [View.readAt_eq_ld, Memref.IsWhole.read_unread, View.readCov_unit_zero (S := S1024x2048) accM.view zeroOff, View.ld_unit_zero (S := S1024x256) zeroOff, View.ld_unit_zero (S := S1024x2048) zeroOff, View.ld_unit_zero (S := S2048x256) zeroOff, View.ld_unit_zero (S := S1x2048) zeroOff]
  exact congrArg (fun z => k1_pay3 (k1_pay2 (blockB V c 0 t) z (blockB V c 1 t)) (blockB V c 2 t)) ((Memref.isWhole_whole _ : accM.IsWhole).read_unread xs)

end Cert.KernelIdeal.Hand
end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.ProductValue.lean ====
/-
  What the product region leaves in its result array, on the extended reals. The accumulator after step k of
  row block i holds, at (p, n), zero plus the first k + 1 steps of 256 products each, added one step at a time
  (an induction over k through the three control cases); after step 31 that is the whole sum over the 8192 terms,
  and the block written back is that sum plus bias clamped at zero: block i of one whole-array function of the
  arrays as the region finds them. The 4 blocks tile the result array.
-/
import proofs.«161453_j88244398064125_2_alg».proof.Proof.ProductPieces
import proofs.«161453_j88244398064125_2_alg».proof.Proof.Spec
import proofs.«161453_j88244398064125_2_alg».proof.Proof.LibMatmulRows
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx
variable (V : (c : Dev nD) → (b : Ref sig .tc) → Buf (Elt Ideal) ((c : Thread nD τ).loc b))

/-! ## The body's arithmetic at one entry -/

/-- The reset value is the zero word everywhere. -/
theorem resetPay_apply (p : Fin 1024) (n : Fin 2048) : k1_pay1 (F := Ideal) (ix2 p n) = Cert.Hand.Spec.zw := by
  unfold k1_pay1
  rw [shapeCast_self]
  rfl

/-- One step: the accumulator's entry plus the 256 products of row p of the activation block with row n of the
    weight block. -/
theorem addPay_apply (x0 : Vec Ideal S1024x256 .f32) (xs : Vec Ideal S1024x2048 .f32) (x1 : Vec Ideal S2048x256 .bf16)
    (p : Fin 1024) (n : Fin 2048) :
    k1_pay2 x0 xs x1 (ix2 p n) = xs (ix2 p n) + ∑ q : Fin 256, x0 (ix2 p q) * x1 (ix2 n q) := by
  unfold k1_pay2
  rw [shapeCast_self, shapeCast_self]
  show xs (ix2 p n) + FloatOps.matmul (F := Ideal) dot_S1024x256_S2048x256_S1024x2048_1_1_0_0_n_n none (truncf .bf16 (x0 : FVec Ideal S1024x256 .f32) bitsLt_bf16_f32) (x1 : FVec Ideal S2048x256 .bf16) (constant (F := Ideal) S1024x2048 .f32 0x00000000#32) (ix2 p n) = _
  refine congrArg (xs (ix2 p n) + ·) ?_
  exact Cert.LibMatmulRows.matmul_zero_apply dot_S1024x256_S2048x256_S1024x2048_1_1_0_0_n_n_wf none (truncf .bf16 (x0 : FVec Ideal S1024x256 .f32) bitsLt_bf16_f32) (x1 : FVec Ideal S2048x256 .bf16) p n

/-- The finish: accumulator plus the bias row's entry n, clamped below at zero. -/
theorem finishPay_apply (acc : Vec Ideal S1024x2048 .f32) (bias : Vec Ideal S1x2048 .f32) (p : Fin 1024) (n : Fin 2048) :
    k1_pay3 acc bias (ix2 p n) = FloatOps.maximumf (FloatOps.addf (acc (ix2 p n)) (bias (ix2 (0 : Fin 1) n))) Cert.Hand.Spec.zw := by
  unfold k1_pay3
  rw [shapeCast_self]
  show FloatOps.maximumf (FloatOps.addf (acc (ix2 p n)) (broadcastTo S1024x2048 bias broadcasts_S1x2048_S1024x2048 (ix2 p n))) Cert.Hand.Spec.zw = _
  rw [broadcastTo_apply bias broadcasts_S1x2048_S1024x2048 (ix2 p n) (ix2 (0 : Fin 1) n) (fun a => by
    match a with
    | ⟨0, _⟩ => show (0 : ℕ) = if (1 : ℕ) = 1 then 0 else _; rw [if_pos rfl]
    | ⟨1, _⟩ => show n.val = if (2048 : ℕ) = 1 then 0 else n.val; rw [if_neg (by decide)])]

/-! ## The windows' blocks, read at an entry -/

/-- Point 32 i + k reads activation block (i, k), weight block (0, k), the whole bias row, and owns output block (i, 0). -/
theorem idxB : ∀ t : Fin cfg1.N, win1_0.index t (0 : Fin 2) = t.val / 32 ∧ win1_0.index t (1 : Fin 2) = t.val % 32
    ∧ win1_1.index t (0 : Fin 2) = 0 ∧ win1_1.index t (1 : Fin 2) = t.val % 32
    ∧ win1_2.index t (0 : Fin 2) = 0 ∧ win1_2.index t (1 : Fin 2) = 0
    ∧ win1_3.index t (0 : Fin 2) = t.val / 32 ∧ win1_3.index t (1 : Fin 2) = 0 :=
  (by decide +kernel : ∀ t : Fin grid1.N, _)

theorem blockB0_apply (c : Dev nD) (t : Fin cfg1.N) (i : Fin 4) (k : ℕ) (hk : k < 32) (ht : t.val = i.val * 32 + k) (p : Fin 1024) (q : Fin 256) :
    (blockB V c 0 t : Vec Ideal S1024x256 .f32) (ix2 p q)
      = V c main_arg0 (ix2 (⟨i.val * 1024 + p.val, by have := i.isLt; have := p.isLt; omega⟩ : Fin 4096) (⟨k * 256 + q.val, by have := q.isLt; omega⟩ : Fin 8192)) := by
  obtain ⟨e0, e1, -⟩ := idxB t
  show V c main_arg0 (((cfg1.win 0).blk t).view.emb (ix2 p q)) = _
  refine congrArg (V c main_arg0) (funext fun a => Fin.ext ?_)
  match a with
  | ⟨0, _⟩ => show win1_0.index t (0 : Fin 2) * 1024 + 1 * p.val = i.val * 1024 + p.val; rw [e0]; have := i.isLt; omega
  | ⟨1, _⟩ => show win1_0.index t (1 : Fin 2) * 256 + 1 * q.val = k * 256 + q.val; rw [e1]; have := i.isLt; omega

theorem blockB1_apply (c : Dev nD) (t : Fin cfg1.N) (i : Fin 4) (k : ℕ) (hk : k < 32) (ht : t.val = i.val * 32 + k) (n : Fin 2048) (q : Fin 256) :
    (blockB V c 1 t : Vec Ideal S2048x256 .bf16) (ix2 n q)
      = V c main_v0 (ix2 n (⟨k * 256 + q.val, by have := q.isLt; omega⟩ : Fin 8192)) := by
  obtain ⟨-, -, e2, e3, -⟩ := idxB t
  show V c main_v0 (((cfg1.win 1).blk t).view.emb (ix2 n q)) = _
  refine congrArg (V c main_v0) (funext fun a => Fin.ext ?_)
  match a with
  | ⟨0, _⟩ => show win1_1.index t (0 : Fin 2) * 2048 + 1 * n.val = n.val; rw [e2]; omega
  | ⟨1, _⟩ => show win1_1.index t (1 : Fin 2) * 256 + 1 * q.val = k * 256 + q.val; rw [e3]; have := i.isLt; omega

theorem blockB2_apply (c : Dev nD) (t : Fin cfg1.N) (n : Fin 2048) :
    (blockB V c 2 t : Vec Ideal S1x2048 .f32) (ix2 (0 : Fin 1) n) = V c main_v1 (ix2 (0 : Fin 1) n) := by
  obtain ⟨-, -, -, -, e4, e5, -⟩ := idxB t
  show V c main_v1 (((cfg1.win 2).blk t).view.emb (ix2 (0 : Fin 1) n)) = _
  refine congrArg (V c main_v1) (funext fun a => Fin.ext ?_)
  match a with
  | ⟨0, _⟩ => show win1_2.index t (0 : Fin 2) * 1 + 1 * 0 = 0; rw [e4]
  | ⟨1, _⟩ => show win1_2.index t (1 : Fin 2) * 2048 + 1 * n.val = n.val; rw [e5]; omega

/-! ## The accumulator, step by step -/

/-- The activations, the effective weight and the bias as the region finds them. -/
abbrev gOf (c : Dev nD) : FVec Ideal ⟨2, ![4096, 8192]⟩ .f32 := V c main_arg0
abbrev weOf (c : Dev nD) : FVec Ideal ⟨2, ![2048, 8192]⟩ .f32 := V c main_v0
abbrev bOf (c : Dev nD) : FVec Ideal ⟨1, ![2048]⟩ .f32 := fun j => V c main_v1 (ix2 (0 : Fin 1) (j 0))

/-- One step at point 32 i + k, whatever the accumulator held: its entry plus step k's 256 products. -/
theorem step_at (c : Dev nD) (t : Fin cfg1.N) (i : Fin 4) (k : ℕ) (hk : k < 32) (ht : t.val = i.val * 32 + k)
    (xs : Vec Ideal S1024x2048 .f32) (p : Fin 1024) (n : Fin 2048) :
    k1_pay2 (blockB V c 0 t) xs (blockB V c 1 t) (ix2 p n)
      = xs (ix2 p n) + Cert.Hand.Spec.stepSum (gOf V c) (weOf V c) (⟨i.val * 1024 + p.val, by have := i.isLt; have := p.isLt; omega⟩ : Fin 4096) n k := by
  refine (addPay_apply (blockB V c 0 t) xs (blockB V c 1 t) p n).trans (congrArg (xs (ix2 p n) + ·) ?_)
  rw [Cert.Hand.Spec.stepSum, dif_pos hk]
  refine Finset.sum_congr rfl fun q _ => ?_
  rw [blockB0_apply V c t i k hk ht p q, blockB1_apply V c t i k hk ht n q]

set_option maxHeartbeats 400000 in
/-- After step k of row block i the accumulator holds zero plus the first k + 1 steps, added in order. -/
theorem acc_steps (c : Dev nD) (i : Fin 4) (k : ℕ) : ∀ (hk : k < 32) (t : Fin cfg1.N) (ht : t.val = i.val * 32 + k) (p : Fin 1024) (n : Fin 2048),
    (leftAt V c t.val t.isLt).2 (ix2 p n)
      = Cert.Hand.Spec.accum (gOf V c) (weOf V c) (⟨i.val * 1024 + p.val, by have := i.isLt; have := p.isLt; omega⟩ : Fin 4096) n k := by
  induction k with
  | zero =>
    intro hk t ht p n
    have h0 : t.val % 32 = 0 := by omega
    have h1 : ¬t.val % 32 = 31 := by omega
    rw [leftAt_first V c t h0 h1]
    dsimp only
    rw [accFirst_eq V c t h0 h1]
    refine (step_at V c t i 0 hk ht (k1_pay1 (F := Ideal)) p n).trans ?_
    rw [resetPay_apply p n]
    rfl
  | succ k ih =>
    intro hk t ht p n
    have h0 : ¬t.val % 32 = 0 := by omega
    have hlt : t.val - 1 < cfg1.N := Nat.lt_of_le_of_lt (Nat.sub_le _ _) t.isLt
    have IH := ih (by omega) ⟨t.val - 1, hlt⟩ (by show t.val - 1 = i.val * 32 + k; omega) p n
    by_cases h1 : t.val % 32 = 31
    · rw [leftAt_last V c t h0 h1]
      dsimp only
      rw [accLast_eq V c t h0 h1 (leftAt V c (t.val - 1) hlt).2]
      refine (step_at V c t i (k + 1) hk ht (leftAt V c (t.val - 1) hlt).2 p n).trans ?_
      rw [Cert.Hand.Spec.accum]
      exact congrArg (· + _) IH
    · rw [leftAt_mid V c t h0 h1]
      dsimp only
      rw [accMid_eq V c t h0 h1 (leftAt V c (t.val - 1) hlt).2]
      refine (step_at V c t i (k + 1) hk ht (leftAt V c (t.val - 1) hlt).2 p n).trans ?_
      rw [Cert.Hand.Spec.accum]
      exact congrArg (· + _) IH

/-! ## The result array -/

/-- The result as one function of the arrays the region finds. -/
def resultOf (c : Dev nD) : S4096x2048.Idx → Elt Ideal .f32 :=
  Cert.Hand.Spec.out (gOf V c) (weOf V c) (bOf V c)

set_option maxHeartbeats 400000 in
/-- At the last step of row block i the output buffer holds block i of the result. -/
theorem out_last (c : Dev nD) (t : Fin cfg1.N) (i : Fin 4) (ht : t.val = i.val * 32 + 31) (p : Fin 1024) (n : Fin 2048) :
    (leftAt V c t.val t.isLt).1 (ix2 p n)
      = resultOf V c (ix2 (⟨i.val * 1024 + p.val, by have := i.isLt; have := p.isLt; omega⟩ : Fin 4096) n) := by
  have h0 : ¬t.val % 32 = 0 := by omega
  have h1 : t.val % 32 = 31 := by omega
  have hlt : t.val - 1 < cfg1.N := Nat.lt_of_le_of_lt (Nat.sub_le _ _) t.isLt
  have hacc := acc_steps V c i 31 (by decide) t ht p n
  rw [leftAt_last V c t h0 h1] at hacc
  dsimp only at hacc
  rw [accLast_eq V c t h0 h1 (leftAt V c (t.val - 1) hlt).2] at hacc
  rw [leftAt_last V c t h0 h1]
  dsimp only
  rw [outLast_eq V c t h0 h1 (leftAt V c (t.val - 1) hlt).2]
  refine (finishPay_apply (k1_pay2 (blockB V c 0 t) (leftAt V c (t.val - 1) hlt).2 (blockB V c 1 t)) (blockB V c 2 t) p n).trans ?_
  rw [hacc, Cert.Hand.Spec.steps_eq_sum, blockB2_apply V c t n]
  rfl

/-- What a point that writes back writes is its block of the result. -/
theorem flushedB_eq (c : Dev nD) (t : Fin cfg1.N) (hf : (cfg1.win 3).flush t = true) :
    (datB V c).flushed 3 t = ((cfg1.win 3).blk t).view.read (Elt Ideal) (resultOf V c) := by
  have h31 : t.val % 32 = 31 := (flush1_3 t).mp hf
  have hN : t.val < 128 := lt_of_lt_of_eq t.isLt (show cfg1.N = 128 from N_1)
  show (cfg1.win 3).cut (grid1.coords t) ((datB V c).after 3 t) = _
  rw [datB_after3]
  funext j
  obtain ⟨p, n, rfl⟩ : ∃ (p : Fin 1024) (n : Fin 2048), j = ix2 p n := ⟨j 0, j 1, eq_ix2 (n0 := 1024) (n1 := 2048) j⟩
  show (leftAt V c t.val t.isLt).1 (ix2 p n) = resultOf V c (((cfg1.win 3).blk t).view.emb (ix2 p n))
  rw [out_last V c t ⟨t.val / 32, by omega⟩ (by show t.val = t.val / 32 * 32 + 31; omega) p n]
  obtain ⟨-, -, -, -, -, -, e6, e7⟩ := idxB t
  refine congrArg (resultOf V c) (funext fun a => Fin.ext ?_)
  match a with
  | ⟨0, _⟩ => show t.val / 32 * 1024 + p.val = win1_3.index t (0 : Fin 2) * 1024 + 1 * p.val; rw [e6]; omega
  | ⟨1, _⟩ => show n.val = win1_3.index t (1 : Fin 2) * 2048 + 1 * n.val; rw [e7]; omega

theorem memBlkB (t : Fin cfg1.N) (i : S4096x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every entry of the result lies in the block written back at the last step of its row block. -/
theorem coverB_all (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 128 := N_1
  refine ⟨⟨(i 0).val / 1024 * 32 + 31, by rw [hN]; omega⟩, (flush1_3 _).mpr (by show ((i 0).val / 1024 * 32 + 31) % 32 = 31; omega), ?_⟩
  rw [memBlkB]
  obtain ⟨-, -, -, -, -, -, e6, e7⟩ := idxB ⟨(i 0).val / 1024 * 32 + 31, by rw [hN]; omega⟩
  intro a
  match a with
  | ⟨0, _⟩ =>
    show win1_3.index _ (0 : Fin 2) * 1024 ≤ (i 0).val ∧ (i 0).val < win1_3.index _ (0 : Fin 2) * 1024 + 1024
    rw [e6]; dsimp only; omega
  | ⟨1, _⟩ =>
    show win1_3.index _ (1 : Fin 2) * 2048 ≤ (i 1).val ∧ (i 1).val < win1_3.index _ (1 : Fin 2) * 2048 + 2048
    rw [e7]; omega

/-- The product region's result array ends holding the result function of the arrays it found. -/
theorem productFinal (c : Dev nD) : (datB V c).arrAt 3 cfg1.N = resultOf V c :=
  (datB V c).arrAt_eq_of_cover 3 (resultOf V c) (fun t hf => flushedB_eq V c t hf) (coverB_all)

end Cert.KernelIdeal.Hand

end
-- ==== Proof.Bridge.lean ====
/-
  The idealized program's result array, from its launch memory: at the product region's entry the activations are
  as launched, the effective weight is what the weight region left (softplus of the raw weights times the mask,
  of the launch arrays), and the bias row is the host's reshape of the launched bias vector; so the result array
  ends holding the specification's function of the four launched arrays.
-/
import proofs.«161453_j88244398064125_2_alg».proof.Proof.WholeRun
import proofs.«161453_j88244398064125_2_alg».proof.Proof.WeightValue
import proofs.«161453_j88244398064125_2_alg».proof.Proof.ProductValue
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Idealize.ShloMosaic.StableHlo
variable (m : (ℓ : Loc nD τ sig) → Buf (Elt Ideal) ℓ) (ρ : Dev nD → PrngReg)

/-- The activations reach the product region as launched. -/
theorem entry_act (c : Dev nD) : V2 m ρ c main_arg0 = m ((c : Thread nD τ).loc main_arg0) :=
  (W2_of m ρ c main_arg0 (by decide)).trans ((W1_of_ne m ρ c main_arg0 (by decide)).trans rfl)

/-- The effective weight reaches it as the weight region left it. -/
theorem entry_weight (c : Dev nD) :
    V2 m ρ c main_v0 = Cert.Hand.Spec.weight (m ((c : Thread nD τ).loc main_arg1)) (m ((c : Thread nD τ).loc main_arg3)) :=
  (W2_of m ρ c main_v0 (by decide)).trans ((W1_arr m ρ c 2).trans (weightFinal (V0 m ρ) c))

/-- The bias row is the launched bias vector laid out as one row. -/
theorem entry_bias (c : Dev nD) (n : Fin 2048) :
    V2 m ρ c main_v1 (ix2 (0 : Fin 1) n) = m ((c : Thread nD τ).loc main_arg2) (ix1 n) := by
  have e : (V2 m ρ c main_v1 : S1x2048.Idx → Elt Ideal .f32)
      = shapeCast S1x2048 (W1 m ρ c (Proc.devRef .tc main_arg2) : S2048.Idx → Elt Ideal .f32) shapeCasts_S2048_S1x2048 := by
    show StableHlo.after hostOps1 (W1 m ρ c) (Proc.devRef .tc main_v1) = _
    after_results
    rfl
  rw [e, shapeCast_apply _ shapeCasts_S2048_S1x2048 (ix2 (0 : Fin 1) n) (ix1 n)
    (by rw [Shape.rowMajor_val_one, Shape.rowMajor_val_two]; show n.val = 0 * 2048 + n.val; omega)]
  exact congrFun ((W1_of_ne m ρ c main_arg2 (by decide)).trans rfl) (ix1 n)

/-- The result array after the run. -/
theorem result_value (c : Dev nD) :
    W3 m ρ c (Proc.devRef .tc main_v2)
      = Cert.Hand.Spec.out (m ((c : Thread nD τ).loc main_arg0))
          (Cert.Hand.Spec.weight (m ((c : Thread nD τ).loc main_arg1)) (m ((c : Thread nD τ).loc main_arg3)))
          (m ((c : Thread nD τ).loc main_arg2)) := by
  rw [W3_main_v2, productFinal (V2 m ρ) c]
  unfold resultOf
  have hb : bOf (V2 m ρ) c = m ((c : Thread nD τ).loc main_arg2) := by
    funext j
    obtain ⟨n, rfl⟩ : ∃ n : Fin 2048, j = ix1 n := ⟨j 0, eq_ix1 (n := 2048) j⟩
    exact entry_bias m ρ c n
  rw [hb]
  show Cert.Hand.Spec.out (V2 m ρ c main_arg0) (V2 m ρ c main_v0) _ = _
  rw [entry_act, entry_weight]

/-- The idealized program runs, its arguments end as launched, and its result array ends at the specification's
    function of the launched arrays. -/
theorem valueRun : θ_run defs (onTc (τ := τ) (main (F := Ideal))) ⟨m, fun _ => 0, ρ⟩ (fun r => ∀ c : Dev nD,
      r.2.mem ((c.tc : Thread nD τ).loc main_v2)
        = Cert.Hand.Spec.out (m ((c : Thread nD τ).loc main_arg0))
            (Cert.Hand.Spec.weight (m ((c : Thread nD τ).loc main_arg1)) (m ((c : Thread nD τ).loc main_arg3)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (result_value m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (wholeRun (F := Ideal) m ρ)

end Cert.KernelIdeal.Hand

end
-- ==== Proof.RefValue.lean ====
/-
  The reference's result, on the extended reals, is the specification's function of the four argument arrays:
  its softplus selects on "x differs from x", which never holds, so it is the stable spelling
  max(x, 0) + log(1 + exp(-|x - 0|)) (a negation being zero minus the value); its einsum is the sum over the 8192
  products of row r of the activations with row n of the effective weight; the bias is broadcast along rows; the
  rectifier is the maximum with zero.
-/
import proofs.«161453_j88244398064125_2_alg».proof.Proof.Gen.ReferenceIdeal.Read
import proofs.«161453_j88244398064125_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The negation of an absolute value is zero minus it. -/
theorem neg_abs (y : Ideal .f32) :
    FloatOps.hostNegf (F := Ideal) (FloatOps.hostAbsf y) = FloatOps.subf Cert.Hand.Spec.zw (FloatOps.absf y) := by
  show -(FloatOps.absf (F := Ideal) y) = Cert.Hand.Spec.zw - FloatOps.absf (F := Ideal) y
  rw [Cert.Hand.Spec.zw_eq, zero_sub]

/-- The reference's effective weight, read at an index. -/
theorem weight_at (x1 x3 : (⟨S2048x8192, .f32⟩ : BufTy).Contents (Elt Ideal)) (j : S2048x8192.Idx) :
    val_main_v1 (F := Ideal) x1 x3 j = Cert.Hand.Spec.weight x1 x3 j := by
  simp only [val_main_v1_apply, val_main_v0_apply, val_main_call0_v4_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_cst_apply,
    Cert.Hand.Spec.select_ne_self .une (.inr rfl), neg_abs]
  rfl

/-- The reference's result is the specification's. -/
theorem result_eq (x0 : (⟨S4096x8192, .f32⟩ : BufTy).Contents (Elt Ideal)) (x1 : (⟨S2048x8192, .f32⟩ : BufTy).Contents (Elt Ideal))
    (x2 : (⟨S2048, .f32⟩ : BufTy).Contents (Elt Ideal)) (x3 : (⟨S2048x8192, .f32⟩ : BufTy).Contents (Elt Ideal)) :
    val_main_v6 (F := Ideal) x0 x1 x2 x3 = Cert.Hand.Spec.out x0 (Cert.Hand.Spec.weight x1 x3) x2 := by
  funext i
  obtain ⟨r, n, rfl⟩ : ∃ (r : Fin 4096) (n : Fin 2048), i = ix2 r n := ⟨i 0, i 1, eq_ix2 (n0 := 4096) (n1 := 2048) i⟩
  have hl : ∀ k, lidx_main_v2 (ix2 r n) k = ix2 r k := fun k => funext fun a => by
    match a with | ⟨0, _⟩ => rfl | ⟨1, _⟩ => rfl
  have hr : ∀ k, ridx_main_v2 (ix2 r n) k = ix2 n k := fun k => funext fun a => by
    match a with | ⟨0, _⟩ => rfl | ⟨1, _⟩ => rfl
  have hb : idx_main_v3 (idx_main_v4 (ix2 r n)) = ix1 n := funext fun a => by
    match a with | ⟨0, _⟩ => rfl
  rw [val_main_v6_apply, val_main_v5_apply, val_main_v2_apply, val_main_v4_apply, val_main_v3_apply, val_main_call1_v0_apply,
    val_main_call1_cst_apply, hb]
  show FloatOps.maximumf (FloatOps.addf (∑ k : Fin 8192, x0 (lidx_main_v2 (ix2 r n) k) * val_main_v1 (F := Ideal) x1 x3 (ridx_main_v2 (ix2 r n) k)) (x2 (ix1 n))) Cert.Hand.Spec.zw
    = FloatOps.maximumf (FloatOps.addf (∑ j : Fin 8192, x0 (ix2 r j) * Cert.Hand.Spec.weight x1 x3 (ix2 n j)) (x2 (ix1 n))) Cert.Hand.Spec.zw
  refine congrArg (fun s => FloatOps.maximumf (FloatOps.addf s (x2 (ix1 n))) Cert.Hand.Spec.zw) (Finset.sum_congr rfl fun k _ => ?_)
  rw [hl k, hr k, weight_at x1 x3 (ix2 n k)]

end Cert.ReferenceIdeal.RefValue

end
-- ==== Proof.lean ====
/-
  The certificate's five claims.

  The kernel program is two pipelined kernel regions around a reshape of the bias on the host. The first region
  computes the effective weight softplus(W_raw) * mask block by block; the second multiplies the activations by
  its transpose in 32 steps of 256 along the contracted axis, keeping a [1024, 2048] accumulator in scratch memory
  from one grid point to the next, and at the last step stores the accumulator plus bias clamped at zero.
  The reference computes max(g · (softplus(W_raw) * mask)ᵀ + b, 0) with one product over the 8192 terms.

  Frames (the word-level and the idealized kernel program): each region's body is run case by case, the
  accumulator's contents riding in the second region's invariant; the regions and the host stretch are chained
  from the launch memory, and no step writes an argument array. The reference's frame is its run.
  Preserves: the idealization rewrote nothing.
  Algebraic: on the extended reals both programs end at one function of the four argument arrays. A change of
  float format is the identity there, the comparison "x differs from x" never holds, and the 32 partial sums added
  to zero in order make the whole sum because addition is associative and commutative; no cancellation or
  distribution is used, so the precondition (finite inputs) is not needed.
-/
import proofs.«161453_j88244398064125_2_alg».proof.Defs
import proofs.«161453_j88244398064125_2_alg».proof.Proof.Gen.Kernel
import proofs.«161453_j88244398064125_2_alg».proof.Proof.Gen.KernelIdeal
import proofs.«161453_j88244398064125_2_alg».proof.Proof.Gen.ReferenceIdeal
import proofs.«161453_j88244398064125_2_alg».proof.Proof.Gen.Pre_finite_inputs
import proofs.«161453_j88244398064125_2_alg».proof.Proof.Gen.ReferenceIdeal.Run
import proofs.«161453_j88244398064125_2_alg».proof.Proof.Gen.ReferenceIdeal.Read
import proofs.«161453_j88244398064125_2_alg».proof.Proof.Word.WholeRun
import proofs.«161453_j88244398064125_2_alg».proof.Proof.Bridge
import proofs.«161453_j88244398064125_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel program and the reference end with equal results. -/
theorem algebraic : Cert.algebraic_KernelIdeal_ReferenceIdeal := by
  intro m ρ m' ρ' _ hagree
  refine ⟨fun c => Cert.Hand.Spec.out (m ((c.tc : Thread Cert.KernelIdeal.nD Cert.KernelIdeal.τ).loc Cert.KernelIdeal.main_arg0))
      (Cert.Hand.Spec.weight (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg2)),
    Cert.KernelIdeal.Hand.valueRun m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v6_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
